-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S_ : Shape := ⟨0, ![]⟩
abbrev S256x256 : Shape := ⟨2, ![256, 256]⟩
abbrev S256 : Shape := ⟨1, ![256]⟩
abbrev S256x128 : Shape := ⟨2, ![256, 128]⟩
abbrev S128 : Shape := ⟨1, ![128]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  reducesTo_S_S_d : S_.ReducesTo [] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v46 : IVec S_ 1) (main_v49 : IVec S128 1) (main_c_19 : IVec S_ 1) : IVec S_ 1 :=
  let main_v50 : IVec S_ 1 := (fun x v => Host.reduce IntOp.andi x v reducesTo_S128_S_d0 h_S_) main_v49 main_c_19
  let main_v51 : IVec S_ 1 := andi main_v46 main_v50
  main_v51

def fn_part2 {F : FTy → Type} [FloatOps F] (main_arg9 : FVec F S256 .f32) (main_arg10 : FVec F S256x128 .f32) (main_arg11 : FVec F S128 .f32) (main_v31 : IVec S_ 1) (main_v32 : FVec F S256x256 .f32) (main_cst_12 : FVec F S_ .f32) : IVec S_ 1 :=
  let main_v33 : FVec F S256x256 .f32 := broadcastInDim S256x256 ![] bcast_S_S256x256 main_cst_12
  let main_v34 : IVec S256x256 1 := cmpf .olt main_v32 main_v33
  let main_c_13 : IVec S_ 1 := constantI S_ 1 1#1
  let main_v35 : IVec S_ 1 := (fun x v => Host.reduce IntOp.andi x v reducesTo_S256x256_S_d0_1 h_S_) main_v34 main_c_13
  let main_v36 : IVec S_ 1 := andi main_v31 main_v35
  let main_v37 : FVec F S256 .f32 := Host.absf main_arg9
  let main_cst_14 : FVec F S_ .f32 := constant S_ .f32 0x7F800000#32
  let main_v38 : FVec F S256 .f32 := broadcastInDim S256 ![] bcast_S_S256 main_cst_14
  let main_v39 : IVec S256 1 := cmpf .olt main_v37 main_v38
  let main_c_15 : IVec S_ 1 := constantI S_ 1 1#1
  let main_v40 : IVec S_ 1 := (fun x v => Host.reduce IntOp.andi x v reducesTo_S256_S_d0 h_S_) main_v39 main_c_15
  let main_v41 : IVec S_ 1 := andi main_v36 main_v40
  let main_v42 : FVec F S256x128 .f32 := Host.absf main_arg10
  let main_cst_16 : FVec F S_ .f32 := constant S_ .f32 0x7F800000#32
  let main_v43 : FVec F S256x128 .f32 := broadcastInDim S256x128 ![] bcast_S_S256x128 main_cst_16
  let main_v44 : IVec S256x128 1 := cmpf .olt main_v42 main_v43
  let main_c_17 : IVec S_ 1 := constantI S_ 1 1#1
  let main_v45 : IVec S_ 1 := (fun x v => Host.reduce IntOp.andi x v reducesTo_S256x128_S_d0_1 h_S_) main_v44 main_c_17
  let main_v46 : IVec S_ 1 := andi main_v41 main_v45
  let main_v47 : FVec F S128 .f32 := Host.absf main_arg11
  let main_cst_18 : FVec F S_ .f32 := constant S_ .f32 0x7F800000#32
  let main_v48 : FVec F S128 .f32 := broadcastInDim S128 ![] bcast_S_S128 main_cst_18
  let main_v49 : IVec S128 1 := cmpf .olt main_v47 main_v48
  let main_c_19 : IVec S_ 1 := constantI S_ 1 1#1
  fn_part3 (F := F) main_v46 main_v49 main_c_19

def fn_part1 {F : FTy → Type} [FloatOps F] (main_arg5 : FVec F S256x256 .f32) (main_arg6 : FVec F S256 .f32) (main_arg7 : FVec F S_ .f32) (main_arg8 : FVec F S256x256 .f32) (main_arg9 : FVec F S256 .f32) (main_arg10 : FVec F S256x128 .f32) (main_arg11 : FVec F S128 .f32) (main_v12 : IVec S_ 1) (main_v15 : IVec S256 1) (main_c_5 : IVec S_ 1) : IVec S_ 1 :=
  let main_v16 : IVec S_ 1 := (fun x v => Host.reduce IntOp.andi x v reducesTo_S256_S_d0 h_S_) main_v15 main_c_5
  let main_v17 : IVec S_ 1 := andi main_v12 main_v16
  let main_v18 : FVec F S256x256 .f32 := Host.absf main_arg5
  let main_cst_6 : FVec F S_ .f32 := constant S_ .f32 0x7F800000#32
  let main_v19 : FVec F S256x256 .f32 := broadcastInDim S256x256 ![] bcast_S_S256x256 main_cst_6
  let main_v20 : IVec S256x256 1 := cmpf .olt main_v18 main_v19
  let main_c_7 : IVec S_ 1 := constantI S_ 1 1#1
  let main_v21 : IVec S_ 1 := (fun x v => Host.reduce IntOp.andi x v reducesTo_S256x256_S_d0_1 h_S_) main_v20 main_c_7
  let main_v22 : IVec S_ 1 := andi main_v17 main_v21
  let main_v23 : FVec F S256 .f32 := Host.absf main_arg6
  let main_cst_8 : FVec F S_ .f32 := constant S_ .f32 0x7F800000#32
  let main_v24 : FVec F S256 .f32 := broadcastInDim S256 ![] bcast_S_S256 main_cst_8
  let main_v25 : IVec S256 1 := cmpf .olt main_v23 main_v24
  let main_c_9 : IVec S_ 1 := constantI S_ 1 1#1
  let main_v26 : IVec S_ 1 := (fun x v => Host.reduce IntOp.andi x v reducesTo_S256_S_d0 h_S_) main_v25 main_c_9
  let main_v27 : IVec S_ 1 := andi main_v22 main_v26
  let main_v28 : FVec F S_ .f32 := Host.absf main_arg7
  let main_cst_10 : FVec F S_ .f32 := constant S_ .f32 0x7F800000#32
  let main_v29 : IVec S_ 1 := cmpf .olt main_v28 main_cst_10
  let main_c_11 : IVec S_ 1 := constantI S_ 1 1#1
  let main_v30 : IVec S_ 1 := (fun x v => Host.reduce IntOp.andi x v reducesTo_S_S_d h_S_) main_v29 main_c_11
  let main_v31 : IVec S_ 1 := andi main_v27 main_v30
  let main_v32 : FVec F S256x256 .f32 := Host.absf main_arg8
  let main_cst_12 : FVec F S_ .f32 := constant S_ .f32 0x7F800000#32
  fn_part2 (F := F) main_arg9 main_arg10 main_arg11 main_v31 main_v32 main_cst_12

def fn {F : FTy → Type} [FloatOps F] (main_arg0 : FVec F S50000x256 .f32) (main_arg1 : IVec S2x800000 32) (main_arg2 : FVec F S_ .f32) (main_arg3 : FVec F S256x256 .f32) (main_arg4 : FVec F S256 .f32) (main_arg5 : FVec F S256x256 .f32) (main_arg6 : FVec F S256 .f32) (main_arg7 : FVec F S_ .f32) (main_arg8 : FVec F S256x256 .f32) (main_arg9 : FVec F S256 .f32) (main_arg10 : FVec F S256x128 .f32) (main_arg11 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S_ .f32 := Host.absf main_arg2
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S256x256 .f32 := Host.absf main_arg3
  let main_cst_2 : FVec F S_ .f32 := constant S_ .f32 0x7F800000#32
  let main_v9 : FVec F S256x256 .f32 := broadcastInDim S256x256 ![] bcast_S_S256x256 main_cst_2
  let main_v10 : IVec S256x256 1 := cmpf .olt main_v8 main_v9
  let main_c_3 : IVec S_ 1 := constantI S_ 1 1#1
  let main_v11 : IVec S_ 1 := (fun x v => Host.reduce IntOp.andi x v reducesTo_S256x256_S_d0_1 h_S_) main_v10 main_c_3
  let main_v12 : IVec S_ 1 := andi main_v7 main_v11
  let main_v13 : FVec F S256 .f32 := Host.absf main_arg4
  let main_cst_4 : FVec F S_ .f32 := constant S_ .f32 0x7F800000#32
  let main_v14 : FVec F S256 .f32 := broadcastInDim S256 ![] bcast_S_S256 main_cst_4
  let main_v15 : IVec S256 1 := cmpf .olt main_v13 main_v14
  let main_c_5 : IVec S_ 1 := constantI S_ 1 1#1
  fn_part1 (F := F) main_arg5 main_arg6 main_arg7 main_arg8 main_arg9 main_arg10 main_arg11 main_v12 main_v15 main_c_5
-- ==== Kernel.lean ====
abbrev S50000x256 : Shape := ⟨2, ![50000, 256]⟩
abbrev S2x800000 : Shape := ⟨2, ![2, 800000]⟩
abbrev S_ : Shape := ⟨0, ![]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S800000x1 : Shape := ⟨2, ![800000, 1]⟩
abbrev S800000x256 : Shape := ⟨2, ![800000, 256]⟩
abbrev S1x256 : Shape := ⟨2, ![1, 256]⟩
abbrev S1x1 : Shape := ⟨2, ![1, 1]⟩
abbrev S2000x256 : Shape := ⟨2, ![2000, 256]⟩
abbrev S1x128 : Shape := ⟨2, ![1, 128]⟩
abbrev S50000x128 : Shape := ⟨2, ![50000, 128]⟩
abbrev S2000x128 : Shape := ⟨2, ![2000, 128]⟩
abbrev S2000 : Shape := ⟨1, ![2000]⟩
abbrev S2000x1 : Shape := ⟨2, ![2000, 1]⟩

abbrev nBuf : Space → Nat
  | .hbm => 55
  | .vmem => 22
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S_, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S_, .f32⟩
  | .hbm, ⟨8, _⟩ => ⟨S256x256, .f32⟩
  | .hbm, ⟨9, _⟩ => ⟨S256, .f32⟩
  | .hbm, ⟨10, _⟩ => ⟨S256x128, .f32⟩
  | .hbm, ⟨11, _⟩ => ⟨S128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x256, .f32⟩
  | .hbm, ⟨25, _⟩ => ⟨S_, .f32⟩
  | .hbm, ⟨26, _⟩ => ⟨S50000x256, .f32⟩
  | .hbm, ⟨27, _⟩ => ⟨S800000x1, .i32⟩
  | .hbm, ⟨28, _⟩ => ⟨S50000x256, .f32⟩
  | .hbm, ⟨29, _⟩ => ⟨S256x256, .bf16⟩
  | .hbm, ⟨30, _⟩ => ⟨S256x256, .bf16⟩
  | .hbm, ⟨31, _⟩ => ⟨S1x256, .f32⟩
  | .hbm, ⟨32, _⟩ => ⟨S1x256, .f32⟩
  | .hbm, ⟨33, _⟩ => ⟨S1x1, .f32⟩
  | .hbm, ⟨34, _⟩ => ⟨S50000x256, .bf16⟩
  | .hbm, ⟨35, _⟩ => ⟨S_, .i32⟩
  | .hbm, ⟨36, _⟩ => ⟨S800000, .i32⟩
  | .hbm, ⟨37, _⟩ => ⟨S800000, .i1⟩
  | .hbm, ⟨38, _⟩ => ⟨S_, .i32⟩
  | .hbm, ⟨39, _⟩ => ⟨S800000, .i32⟩
  | .hbm, ⟨40, _⟩ => ⟨S800000, .i32⟩
  | .hbm, ⟨41, _⟩ => ⟨S800000, .i32⟩
  | .hbm, ⟨42, _⟩ => ⟨S800000x1, .i32⟩
  | .hbm, ⟨43, _⟩ => ⟨S800000x256, .bf16⟩
  | .hbm, ⟨44, _⟩ => ⟨S800000x256, .f32⟩
  | .hbm, ⟨45, _⟩ => ⟨S_, .f32⟩
  | .hbm, ⟨46, _⟩ => ⟨S50000x256, .f32⟩
  | .hbm, ⟨47, _⟩ => ⟨S800000x1, .i32⟩
  | .hbm, ⟨48, _⟩ => ⟨S50000x256, .f32⟩
  | .hbm, ⟨49, _⟩ => ⟨S256x256, .bf16⟩
  | .hbm, ⟨50, _⟩ => ⟨S256x128, .bf16⟩
  | .hbm, ⟨51, _⟩ => ⟨S1x256, .f32⟩
  | .hbm, ⟨52, _⟩ => ⟨S1x128, .f32⟩
  | .hbm, ⟨53, _⟩ => ⟨S1x1, .f32⟩
  | .hbm, ⟨54, _⟩ => ⟨S50000x128, .f32⟩
  | .local _ .vmem, ⟨0, _⟩ => ⟨S1x1, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S2000x256, .f32⟩
  | .local _ .vmem, ⟨5, _⟩ => ⟨S256x256, .bf16⟩
  | .local _ .vmem, ⟨6, _⟩ => ⟨S1x256, .f32⟩
  | .local _ .vmem, ⟨7, _⟩ => ⟨S256x256, .bf16⟩
  | .local _ .vmem, ⟨8, _⟩ => ⟨S1x256, .f32⟩
  | .local _ .vmem, ⟨9, _⟩ => ⟨S2000x256, .bf16⟩
  | .local _ .vmem, ⟨10, _⟩ => ⟨S2000x256, .bf16⟩
  | .local _ .vmem, ⟨11, _⟩ => ⟨S1x1, .f32⟩
  | .local _ .vmem, ⟨12, _⟩ => ⟨S2000x256, .bf16⟩
  | .local _ .vmem, ⟨13, _⟩ => ⟨S2000x256, .bf16⟩
  | .local _ .vmem, ⟨14, _⟩ => ⟨S2000x256, .f32⟩
  | .local _ .vmem, ⟨15, _⟩ => ⟨S2000x256, .f32⟩
  | .local _ .vmem, ⟨16, _⟩ => ⟨S256x256, .bf16⟩
  | .local _ .vmem, ⟨17, _⟩ => ⟨S1x256, .f32⟩
  | .local _ .vmem, ⟨18, _⟩ => ⟨S256x128, .bf16⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_1 : Ref sig .tc := ⟨.hbm, 35, rfl⟩
abbrev main_v20 : Ref sig .tc := ⟨.hbm, 36, rfl⟩
abbrev main_v21 : Ref sig .tc := ⟨.hbm, 37, rfl⟩
abbrev main_c_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_3 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S2000x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bitsLt_bf16_f32 : FTy.bits .bf16 < FTy.bits .f32
  shapeCasts_S256_S1x256 : S256.ShapeCasts S1x256
  shapeCasts_S_S1x1 : S_.ShapeCasts S1x1
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x256 : S1x1.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  packedbf16_S2000x256_S2000x256_0_0 : (Rect.unit (s := S2000x256) ![0, 0] S2000x256.size inb_S2000x256_S2000x256_0_0).PackedRows (EltTy.packing .bf16)
  shapeCasts_S128_S1x128 : S128.ShapeCasts S1x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1.size a ≤ S1x1.size a
  hwx0_0 : ∀ i : grid0.Coords, EltTy.bits .f32 = 32 ∨ (Rect.block (s := S1x1) S1x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S50000x256.size a
  hwx0_7 : ∀ i : grid0.Coords, EltTy.bits .bf16 = 32 ∨ (Rect.block (s := S50000x256) S2000x256.size (cc0_transform_7 i) (hinb0_7 i)).WholeWords (EltTy.packing .bf16)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x1.size a ≤ S1x1.size a
  hwx1_0 : ∀ i : grid1.Coords, EltTy.bits .f32 = 32 ∨ (Rect.block (s := S1x1) S1x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .bf16 = 32 ∨ (Rect.block (s := S50000x256) S2000x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x128.size a ≤ S256x128.size a
  hwx1_5 : ∀ i : grid1.Coords, EltTy.bits .bf16 = 32 ∨ (Rect.block (s := S256x128) S256x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_v18) S1x1.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19) S2000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v35) S1x1.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v19) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v31) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v33) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S256x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v36) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S_ : Shape := ⟨0, ![]⟩
abbrev S256x256 : Shape := ⟨2, ![256, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S800000x1 : Shape := ⟨2, ![800000, 1]⟩
abbrev S800000x256 : Shape := ⟨2, ![800000, 256]⟩
abbrev S1x256 : Shape := ⟨2, ![1, 256]⟩
abbrev S50000x128 : Shape := ⟨2, ![50000, 128]⟩
abbrev S1x128 : Shape := ⟨2, ![1, 128]⟩
abbrev S50000 : Shape := ⟨1, ![50000]⟩
abbrev S50000x1 : Shape := ⟨2, ![50000, 1]⟩

abbrev nBuf : Space → Nat
  | .hbm => 95
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S_, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S_, .f32⟩
  | .hbm, ⟨8, _⟩ => ⟨S256x256, .f32⟩
  | .hbm, ⟨9, _⟩ => ⟨S256, .f32⟩
  | .hbm, ⟨10, _⟩ => ⟨S256x128, .f32⟩
  | .hbm, ⟨11, _⟩ => ⟨S128, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x256, .f32⟩
  | .hbm, ⟨25, _⟩ => ⟨S_, .f32⟩
  | .hbm, ⟨26, _⟩ => ⟨S50000x256, .f32⟩
  | .hbm, ⟨27, _⟩ => ⟨S800000x1, .i32⟩
  | .hbm, ⟨28, _⟩ => ⟨S50000x256, .f32⟩
  | .hbm, ⟨29, _⟩ => ⟨S_, .f32⟩
  | .hbm, ⟨30, _⟩ => ⟨S_, .f32⟩
  | .hbm, ⟨31, _⟩ => ⟨S50000x256, .f32⟩
  | .hbm, ⟨32, _⟩ => ⟨S50000x256, .f32⟩
  | .hbm, ⟨33, _⟩ => ⟨S50000x256, .f32⟩
  | .hbm, ⟨34, _⟩ => ⟨S50000x256, .f32⟩
  | .hbm, ⟨35, _⟩ => ⟨S1x256, .f32⟩
  | .hbm, ⟨36, _⟩ => ⟨S50000x256, .f32⟩
  | .hbm, ⟨37, _⟩ => ⟨S50000x256, .f32⟩
  | .hbm, ⟨38, _⟩ => ⟨S_, .f32⟩
  | .hbm, ⟨39, _⟩ => ⟨S50000x256, .f32⟩
  | .hbm, ⟨40, _⟩ => ⟨S50000x256, .f32⟩
  | .hbm, ⟨41, _⟩ => ⟨S50000x256, .f32⟩
  | .hbm, ⟨42, _⟩ => ⟨S1x256, .f32⟩
  | .hbm, ⟨43, _⟩ => ⟨S50000x256, .f32⟩
  | .hbm, ⟨44, _⟩ => ⟨S50000x256, .f32⟩
  | .hbm, ⟨45, _⟩ => ⟨S_, .f32⟩
  | .hbm, ⟨46, _⟩ => ⟨S50000x256, .f32⟩
  | .hbm, ⟨47, _⟩ => ⟨S50000x256, .f32⟩
  | .hbm, ⟨48, _⟩ => ⟨S_, .f32⟩
  | .hbm, ⟨49, _⟩ => ⟨S50000x256, .f32⟩
  | .hbm, ⟨50, _⟩ => ⟨S50000x256, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x256, .f32⟩
  | .hbm, ⟨60, _⟩ => ⟨S_, .f32⟩
  | .hbm, ⟨61, _⟩ => ⟨S50000x256, .f32⟩
  | .hbm, ⟨62, _⟩ => ⟨S800000x1, .i32⟩
  | .hbm, ⟨63, _⟩ => ⟨S50000x256, .f32⟩
  | .hbm, ⟨64, _⟩ => ⟨S_, .f32⟩
  | .hbm, ⟨65, _⟩ => ⟨S_, .f32⟩
  | .hbm, ⟨66, _⟩ => ⟨S50000x256, .f32⟩
  | .hbm, ⟨67, _⟩ => ⟨S50000x256, .f32⟩
  | .hbm, ⟨68, _⟩ => ⟨S50000x256, .f32⟩
  | .hbm, ⟨69, _⟩ => ⟨S50000x256, .f32⟩
  | .hbm, ⟨70, _⟩ => ⟨S1x256, .f32⟩
  | .hbm, ⟨71, _⟩ => ⟨S50000x256, .f32⟩
  | .hbm, ⟨72, _⟩ => ⟨S50000x256, .f32⟩
  | .hbm, ⟨73, _⟩ => ⟨S_, .f32⟩
  | .hbm, ⟨74, _⟩ => ⟨S50000x256, .f32⟩
  | .hbm, ⟨75, _⟩ => ⟨S50000x256, .f32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S50000, .f32⟩
  | .hbm, ⟨82, _⟩ => ⟨S_, .f32⟩
  | .hbm, ⟨83, _⟩ => ⟨S50000, .f32⟩
  | .hbm, ⟨84, _⟩ => ⟨S50000, .f32⟩
  | .hbm, ⟨85, _⟩ => ⟨S50000x1, .f32⟩
  | .hbm, ⟨86, _⟩ => ⟨S50000x128, .f32⟩
  | .hbm, ⟨87, _⟩ => ⟨S50000x128, .f32⟩
  | .hbm, ⟨88, _⟩ => ⟨S50000x128, .f32⟩
  | .hbm, ⟨89, _⟩ => ⟨S_, .f32⟩
  | .hbm, ⟨90, _⟩ => ⟨S50000, .f32⟩
  | .hbm, ⟨91, _⟩ => ⟨S50000x1, .f32⟩
  | .hbm, ⟨92, _⟩ => ⟨S50000x1, .f32⟩
  | .hbm, ⟨93, _⟩ => ⟨S50000x128, .f32⟩
  | .hbm, ⟨94, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_call0_cst : Ref sig .tc := ⟨.hbm, 38, rfl⟩
abbrev main_call0_v0 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_call1_cst : Ref sig .tc := ⟨.hbm, 45, rfl⟩
abbrev main_call1_v0 : Ref sig .tc := ⟨.hbm, 46, rfl⟩
abbrev main_v27 : Ref sig .tc := ⟨.hbm, 47, rfl⟩
abbrev main_call2_cst : Ref sig .tc := ⟨.hbm, 48, rfl⟩
abbrev main_call2_v0 : Ref sig .tc := ⟨.hbm, 49, rfl⟩
abbrev main_v28 : Ref sig .tc := ⟨.hbm, 50, rfl⟩
abbrev main_c_2 : Ref sig .tc := ⟨.hbm, 51, rfl⟩
abbrev main_v29 : Ref sig .tc := ⟨.hbm, 52, rfl⟩
abbrev main_v30 : Ref sig .tc := ⟨.hbm, 53, rfl⟩
abbrev main_c_3 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_4 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_5 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_call3_cst : Ref sig .tc := ⟨.hbm, 73, rfl⟩
abbrev main_call3_v0 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_call4_cst : Ref sig .tc := ⟨.hbm, 80, rfl⟩
abbrev main_call4_v0 : Ref sig .tc := ⟨.hbm, 81, rfl⟩
abbrev main_call4_cst_0 : Ref sig .tc := ⟨.hbm, 82, rfl⟩
abbrev main_call4_v1 : Ref sig .tc := ⟨.hbm, 83, rfl⟩
abbrev main_call4_v2 : Ref sig .tc := ⟨.hbm, 84, rfl⟩
abbrev main_call4_v3 : Ref sig .tc := ⟨.hbm, 85, rfl⟩
abbrev main_call4_v4 : Ref sig .tc := ⟨.hbm, 86, rfl⟩
abbrev main_call4_v5 : Ref sig .tc := ⟨.hbm, 87, rfl⟩
abbrev main_call4_v6 : Ref sig .tc := ⟨.hbm, 88, rfl⟩
abbrev main_call4_cst_1 : Ref sig .tc := ⟨.hbm, 89, rfl⟩
abbrev main_call4_v7 : Ref sig .tc := ⟨.hbm, 90, rfl⟩
abbrev main_call4_v8 : Ref sig .tc := ⟨.hbm, 91, rfl⟩
abbrev main_call4_v9 : Ref sig .tc := ⟨.hbm, 92, rfl⟩
abbrev main_call4_v10 : Ref sig .tc := ⟨.hbm, 93, rfl⟩
abbrev main_v52 : Ref sig .tc := ⟨.hbm, 94, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.KernelRun.lean ====
/-
  The idealized kernel's run with its result named.

  @main is four segments: the host operations before the first call, the first call (layer 0's MLP over 25 row
  tiles), the host operations between the calls, and the second call (layer 1's MLP and the row-wise log-softmax).
  The buffer contents at the segment boundaries are a fold from the launch memory: `W1` after the first host
  stretch, `W2` with the first call's output array at what its 25 write-backs leave, `W3` after the second host
  stretch, `W4` with the second call's output array at what its write-backs leave. Every weakly fair execution
  ends with every unscoped buffer at `W4`; read at the result buffer this names the result, and read at an
  argument it is the launch contents, since nothing writes an argument.
-/
import proofs.«117710_j39848706573591_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last boundary's
    contents `W4`, and every argument array ends as launched. -/
theorem run : θ_run defs (onTc (τ := τ) (main (F := F))) ⟨m, fun _ => 0, ρ⟩ (fun r => ∀ c : Dev nD,
      r.2.mem ((c.tc : Thread nD τ).loc main_v36) = W4 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v36 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.RunValue

end
-- ==== Proof.GinRows.lean ====
/-
  The mathematics of the two-layer graph network, row by row, on the extended reals.

  A layer takes a node's own feature row `xr` and the sum `ar` of its in-neighbours' rows, forms
  `u = (1 + eps) · xr + ar`, and applies a two-layer perceptron: `h = max (u · W1 + b1) 0`, then `h · W2 + b2`.
  Every entry of a layer's output row depends on that node's two rows only — which is why a tile of rows of the
  output is the whole-array function restricted to the tile. The last layer's row goes through a log-softmax:
  with `mx` the row's maximum, `z j - mx - log (∑ k, exp (z k - mx))`.

  The float constants are kept as the binary words both programs print (one, zero, minus infinity): the same word
  on both sides is never evaluated.
-/
import Idealize.ShloMosaic.PureOps.Ideal
import Idealize.ShloMosaic.PureOps.Ideal.Laws
import Idealize.ShloMosaic.Lib.ValueIdx

noncomputable section

namespace Cert.GinRows

open Idealize.ShloMosaic Idealize.ShloMosaic.ValueIdx

/-- The word of `1.0`. -/
abbrev one : EReal := Ideal.ofBits .f32 0x3F800000#32
/-- The word of `0.0`. -/
abbrev zero : EReal := Ideal.ofBits .f32 0x00000000#32
/-- The word of minus infinity, the neutral element a row maximum starts from. -/
abbrev negInf : EReal := Ideal.ofBits .f32 0xFF800000#32

/-- A node's combined input row: `(1 + eps) · xr + ar`. -/
def combine (eps : EReal) (xr ar : Fin 256 → EReal) (k : Fin 256) : EReal := (one + eps) * xr k + ar k

/-- A row against a weight matrix plus a bias: `(∑ k, u k · W k j) + b j`. -/
def affine {C : Nat} (W : Fin 256 → Fin C → EReal) (b : Fin C → EReal) (u : Fin 256 → EReal) (j : Fin C) : EReal :=
  (∑ k : Fin 256, u k * W k j) + b j

/-- The perceptron's hidden row: the affine map followed by the rectifier. -/
def hidden (W1 : Fin 256 → Fin 256 → EReal) (b1 : Fin 256 → EReal) (u : Fin 256 → EReal) (j : Fin 256) : EReal :=
  max (affine W1 b1 u j) zero

/-- A layer's row before any final rectifier. -/
def layerRow {C : Nat} (eps : EReal) (W1 : Fin 256 → Fin 256 → EReal) (b1 : Fin 256 → EReal)
    (W2 : Fin 256 → Fin C → EReal) (b2 : Fin C → EReal) (xr ar : Fin 256 → EReal) (j : Fin C) : EReal :=
  affine W2 b2 (hidden W1 b1 (combine eps xr ar)) j

/-- Layer 0's row: the layer followed by the rectifier. -/
def layer0Row (eps : EReal) (W1 : Fin 256 → Fin 256 → EReal) (b1 : Fin 256 → EReal)
    (W2 : Fin 256 → Fin 256 → EReal) (b2 : Fin 256 → EReal) (xr ar : Fin 256 → EReal) (j : Fin 256) : EReal :=
  max (layerRow eps W1 b1 W2 b2 xr ar j) zero

/-- A row's maximum, folded from minus infinity. -/
def rowMax (z : Fin 128 → EReal) : EReal := (Finset.univ : Finset (Fin 128)).fold max negInf z

/-- The log-softmax of a row. -/
def logSoftmaxRow (z : Fin 128 → EReal) (j : Fin 128) : EReal :=
  (z j - rowMax z) - Ideal.log (∑ k : Fin 128, Ideal.exp (z k - rowMax z))

/-- The rectifier applied twice is the rectifier: `max (max a 0) 0 = max a 0` on every extended real. -/
theorem relu_relu (a c : EReal) : max (max a c) c = max a c := by
  rw [max_assoc, max_self]

/-- Minus infinity is neutral for the maximum. -/
theorem negInf_eq_bot : negInf = ⊥ := by
  simp [negInf, Ideal.ofBits, Ideal.ieee]

theorem max_negInf_left (a : EReal) : max negInf a = a := by
  rw [negInf_eq_bot]; exact bot_sup_eq a

/-! ## The layers over whole arrays -/

/-- The node an entry of an N × C array belongs to. -/
abbrev rowOf {N C : Nat} (i : (⟨2, ![N, C]⟩ : Shape).Idx) : Fin N := ⟨(i 0).val, idx2_lt0 i⟩
/-- The column of an entry of an N × C array. -/
abbrev colOf {N C : Nat} (i : (⟨2, ![N, C]⟩ : Shape).Idx) : Fin C := ⟨(i 1).val, idx2_lt1 i⟩

/-- LAYER 0 over the whole graph: entry `(a, j)` is the rectified layer row of node `a`'s own row of `x` and its row
    of the aggregate `agg`. -/
def layer0 (eps : EReal) (W1 : Fin 256 → Fin 256 → EReal) (b1 : Fin 256 → EReal)
    (W2 : Fin 256 → Fin 256 → EReal) (b2 : Fin 256 → EReal)
    (x agg : (⟨2, ![50000, 256]⟩ : Shape).Idx → EReal) : (⟨2, ![50000, 256]⟩ : Shape).Idx → EReal :=
  fun i => layer0Row eps W1 b1 W2 b2 (fun k => x (ix2 (rowOf i) k)) (fun k => agg (ix2 (rowOf i) k)) (colOf i)

/-- LAYER 1 over the whole graph: entry `(a, j)` is the log-softmax of the layer row of node `a`'s rows. -/
def layer1 (eps : EReal) (W1 : Fin 256 → Fin 256 → EReal) (b1 : Fin 256 → EReal)
    (W2 : Fin 256 → Fin 128 → EReal) (b2 : Fin 128 → EReal)
    (x agg : (⟨2, ![50000, 256]⟩ : Shape).Idx → EReal) : (⟨2, ![50000, 128]⟩ : Shape).Idx → EReal :=
  fun i => logSoftmaxRow (layerRow eps W1 b1 W2 b2 (fun k => x (ix2 (rowOf i) k)) (fun k => agg (ix2 (rowOf i) k))) (colOf i)

/-- Equal parameters and equal rows give equal layer rows. -/
theorem layerRow_congr {C : Nat} {eps eps' : EReal} {W1 W1' : Fin 256 → Fin 256 → EReal} {b1 b1' : Fin 256 → EReal}
    {W2 W2' : Fin 256 → Fin C → EReal} {b2 b2' : Fin C → EReal} {xr xr' ar ar' : Fin 256 → EReal}
    (he : eps = eps') (hW1 : W1 = W1') (hb1 : b1 = b1') (hW2 : W2 = W2') (hb2 : b2 = b2') (hx : xr = xr') (ha : ar = ar') :
    layerRow eps W1 b1 W2 b2 xr ar = layerRow eps' W1' b1' W2' b2' xr' ar' := by
  subst he hW1 hb1 hW2 hb2 hx ha; rfl

end Cert.GinRows

end
-- ==== Proof.LibRowOps.lean ====
/-
  Row operations read at coordinates, at the extended reals: a sum over the last or the middle axis of a
  rank-3 vector and over the last axis of a rank-2 one, as a sum over that axis's coordinate; broadcasts
  along a unit axis and casts that insert a unit axis, read at the coordinates of the result. Every
  statement is over arbitrary extents and spells indices by their coordinates.
-/
import Idealize.ShloMosaic.PureOps.Ideal.Laws
import Idealize.ShloMosaic.Lib.ValueIdx
import Idealize.ShloMosaic.Lib.Pipeline.Value

noncomputable section

namespace Cert.LibRowOps

open Idealize.ShloMosaic Idealize.ShloMosaic.ValueIdx

/-- A sum over the last axis of an [A, B, C] vector, at (a, b): the sum over k of the entry at (a, b, k). -/
theorem sum_last3 {A B C : ℕ} (src : FVec Ideal ⟨3, ![A, B, C]⟩ .f32)
    (h : (⟨3, ![A, B, C]⟩ : Shape).Reduces [2] ⟨2, ![A, B]⟩) (hφ : FKind.Formats .f32)
    (hacc : (0x00000000#32 : BitVec 32) = 0x00000000#32) (a : Fin A) (b : Fin B) :
    multiReduction .add [2] ⟨2, ![A, B]⟩ src 0x00000000#32 h hφ hacc (ix2 a b) = ∑ k : Fin C, src (ix3 a b k) := by
  refine (Ideal.multiReduction_add_single src 0x00000000#32 h hφ hacc (ix2 a b)).trans ?_
  refine Finset.sum_congr rfl fun k _ => congrArg src ?_
  funext d
  match d with
  | ⟨0, _⟩ => rfl
  | ⟨1, _⟩ => rfl
  | ⟨2, _⟩ => rfl

/-- A sum over the middle axis of an [A, B, C] vector, at (a, c): the sum over k of the entry at (a, k, c). -/
theorem sum_mid3 {A B C : ℕ} (src : FVec Ideal ⟨3, ![A, B, C]⟩ .f32)
    (h : (⟨3, ![A, B, C]⟩ : Shape).Reduces [1] ⟨2, ![A, C]⟩) (hφ : FKind.Formats .f32)
    (hacc : (0x00000000#32 : BitVec 32) = 0x00000000#32) (a : Fin A) (c : Fin C) :
    multiReduction .add [1] ⟨2, ![A, C]⟩ src 0x00000000#32 h hφ hacc (ix2 a c) = ∑ k : Fin B, src (ix3 a k c) := by
  refine (Ideal.multiReduction_add_single src 0x00000000#32 h hφ hacc (ix2 a c)).trans ?_
  refine Finset.sum_congr rfl fun k _ => congrArg src ?_
  funext d
  match d with
  | ⟨0, _⟩ => rfl
  | ⟨1, _⟩ => rfl
  | ⟨2, _⟩ => rfl

/-- A sum over the last axis of an [A, B] vector, at a: the sum over k of the entry at (a, k). -/
theorem sum_last2 {A B : ℕ} (src : FVec Ideal ⟨2, ![A, B]⟩ .f32)
    (h : (⟨2, ![A, B]⟩ : Shape).Reduces [1] ⟨1, ![A]⟩) (hφ : FKind.Formats .f32)
    (hacc : (0x00000000#32 : BitVec 32) = 0x00000000#32) (a : Fin A) :
    multiReduction .add [1] ⟨1, ![A]⟩ src 0x00000000#32 h hφ hacc (ix1 a) = ∑ k : Fin B, src (ix2 a k) := by
  refine (Ideal.multiReduction_add_single src 0x00000000#32 h hφ hacc (ix1 a)).trans ?_
  refine Finset.sum_congr rfl fun k _ => congrArg src ?_
  funext d
  match d with
  | ⟨0, _⟩ => rfl
  | ⟨1, _⟩ => rfl

variable {α : Type}

/-- [A, 1, C] broadcast to [A, B, C], at (a, b, c): the operand at (a, 0, c). -/
theorem bcast_a1c_abc {A B C : ℕ} (x : (⟨3, ![A, 1, C]⟩ : Shape).Idx → α)
    (h : (⟨3, ![A, 1, C]⟩ : Shape).Broadcasts ⟨3, ![A, B, C]⟩) (a : Fin A) (b : Fin B) (c : Fin C) :
    broadcastTo ⟨3, ![A, B, C]⟩ x h (ix3 a b c) = x (ix3 a 0 c) := by
  refine broadcastTo_apply x h _ _ fun d => ?_
  match d with
  | ⟨0, _⟩ =>
    show a.val = if A = 1 then 0 else a.val
    split_ifs with hA
    · have := a.isLt; omega
    · rfl
  | ⟨1, _⟩ => rfl
  | ⟨2, _⟩ =>
    show c.val = if C = 1 then 0 else c.val
    split_ifs with hC
    · have := c.isLt; omega
    · rfl

/-- [A, B, 1] broadcast to [A, B, C], at (a, b, c): the operand at (a, b, 0). -/
theorem bcast_ab1_abc {A B C : ℕ} (x : (⟨3, ![A, B, 1]⟩ : Shape).Idx → α)
    (h : (⟨3, ![A, B, 1]⟩ : Shape).Broadcasts ⟨3, ![A, B, C]⟩) (a : Fin A) (b : Fin B) (c : Fin C) :
    broadcastTo ⟨3, ![A, B, C]⟩ x h (ix3 a b c) = x (ix3 a b 0) := by
  refine broadcastTo_apply x h _ _ fun d => ?_
  match d with
  | ⟨0, _⟩ =>
    show a.val = if A = 1 then 0 else a.val
    split_ifs with hA
    · have := a.isLt; omega
    · rfl
  | ⟨1, _⟩ =>
    show b.val = if B = 1 then 0 else b.val
    split_ifs with hB
    · have := b.isLt; omega
    · rfl
  | ⟨2, _⟩ => rfl

/-- [A, 1] broadcast to [A, B], at (a, b): the operand at (a, 0). -/
theorem bcast_a1_ab {A B : ℕ} (x : (⟨2, ![A, 1]⟩ : Shape).Idx → α)
    (h : (⟨2, ![A, 1]⟩ : Shape).Broadcasts ⟨2, ![A, B]⟩) (a : Fin A) (b : Fin B) :
    broadcastTo ⟨2, ![A, B]⟩ x h (ix2 a b) = x (ix2 a 0) := by
  refine broadcastTo_apply x h _ _ fun d => ?_
  match d with
  | ⟨0, _⟩ =>
    show a.val = if A = 1 then 0 else a.val
    split_ifs with hA
    · have := a.isLt; omega
    · rfl
  | ⟨1, _⟩ => rfl

/-- [1, B] broadcast to [A, B], at (a, b): the operand at (0, b). -/
theorem bcast_1b_ab {A B : ℕ} (x : (⟨2, ![1, B]⟩ : Shape).Idx → α)
    (h : (⟨2, ![1, B]⟩ : Shape).Broadcasts ⟨2, ![A, B]⟩) (a : Fin A) (b : Fin B) :
    broadcastTo ⟨2, ![A, B]⟩ x h (ix2 a b) = x (ix2 0 b) := by
  refine broadcastTo_apply x h _ _ fun d => ?_
  match d with
  | ⟨0, _⟩ => rfl
  | ⟨1, _⟩ =>
    show b.val = if B = 1 then 0 else b.val
    split_ifs with hB
    · have := b.isLt; omega
    · rfl

/-- [A, C] cast to [A, 1, C], at (a, 0, c): the operand at (a, c). -/
theorem cast_ac_a1c {A C : ℕ} (x : (⟨2, ![A, C]⟩ : Shape).Idx → α)
    (h : (⟨2, ![A, C]⟩ : Shape).ShapeCasts ⟨3, ![A, 1, C]⟩) (a : Fin A) (z : Fin 1) (c : Fin C) :
    shapeCast ⟨3, ![A, 1, C]⟩ x h (ix3 a z c) = x (ix2 a c) := by
  refine shapeCast_apply x h _ _ ?_
  rw [Shape.rowMajor_val_two, Shape.rowMajor_val_three]
  show a.val * C + c.val = (a.val * 1 + z.val) * C + c.val
  have := z.isLt
  have hz : z.val = 0 := by omega
  rw [hz]; ring

/-- [A, B] cast to [A, B, 1], at (a, b, 0): the operand at (a, b). -/
theorem cast_ab_ab1 {A B : ℕ} (x : (⟨2, ![A, B]⟩ : Shape).Idx → α)
    (h : (⟨2, ![A, B]⟩ : Shape).ShapeCasts ⟨3, ![A, B, 1]⟩) (a : Fin A) (b : Fin B) (z : Fin 1) :
    shapeCast ⟨3, ![A, B, 1]⟩ x h (ix3 a b z) = x (ix2 a b) := by
  refine shapeCast_apply x h _ _ ?_
  rw [Shape.rowMajor_val_two, Shape.rowMajor_val_three]
  show a.val * B + b.val = (a.val * B + b.val) * 1 + z.val
  have := z.isLt
  omega

/-- [A] cast to [A, 1], at (a, 0): the operand at a. -/
theorem cast_a_a1 {A : ℕ} (x : (⟨1, ![A]⟩ : Shape).Idx → α)
    (h : (⟨1, ![A]⟩ : Shape).ShapeCasts ⟨2, ![A, 1]⟩) (a : Fin A) (z : Fin 1) :
    shapeCast ⟨2, ![A, 1]⟩ x h (ix2 a z) = x (ix1 a) := by
  refine shapeCast_apply x h _ _ ?_
  rw [Shape.rowMajor_val_one, Shape.rowMajor_val_two]
  show a.val = a.val * 1 + z.val
  have := z.isLt
  omega

end Cert.LibRowOps

end
-- ==== Proof.LibColumnBlocks.lean ====
/-
  Matrices built from column blocks, and plain matrix products, read at coordinates.

  A concatenation of matrices of equal height along the column axis reads, at `(a, b)`, the block that column `b`
  falls in, at `(a, b - the widths before it)`: stated for two blocks and for four. A matrix product with one
  contracted axis — the left operand's columns against the right operand's rows, no batch axis — reads at `(a, b)`, over
  the extended reals, the sum over `k` of `lhs (a, k) · rhs (k, b)`: stated for the accumulating product into a
  zero accumulator and for the host's product. The dimension record's two non-contracted coordinates are taken as
  hypotheses; at a literal record they hold by computation.
-/
import Idealize.ShloMosaic.PureOps.Ideal.Laws
import Idealize.ShloMosaic.Lib.ValueIdx
import Idealize.ShloMosaic.Lib.Pipeline.Value

noncomputable section

namespace Cert.LibColumnBlocks

open Idealize.ShloMosaic Idealize.ShloMosaic.ValueIdx

variable {α : Type}

/-! ## Two column blocks -/

/-- `[x₁ | x₂]` at a column inside the first block. -/
theorem cat2_left {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : b.val < B1) :
    concatenate ⟨2, ![A, B]⟩ 1 [⟨⟨2, ![A, B1]⟩, x₁⟩, ⟨⟨2, ![A, B2]⟩, x₂⟩] h (ix2 a b) = x₁ (ix2 a ⟨b.val, hb⟩) :=
  concatenate_pair_apply_left 1 x₁ x₂ h (ix2 a b) rfl (ix2 a ⟨b.val, hb⟩) fun d => by
    match d with
    | ⟨0, _⟩ => rfl
    | ⟨1, _⟩ => rfl

/-- `[x₁ | x₂]` at a column past the first block. -/
theorem cat2_right {A B1 B2 B : ℕ} (x₁ : (⟨2, ![A, B1]⟩ : Shape).Idx → α) (x₂ : (⟨2, ![A, B2]⟩ : Shape).Idx → α)
    (h : Shape.Concatenates [⟨2, ![A, B1]⟩, ⟨2, ![A, B2]⟩] ⟨2, ![A, B]⟩ 1) (a : Fin A) (b : Fin B) (hb : B1 ≤ b.val)
    (hb' : b.val - B1 < B2) :
    concatenate ⟨2, ![A, B]⟩ 1 [⟨⟨2, ![A, B1]⟩, x₁⟩, ⟨⟨2, ![A, B2]⟩, x₂⟩] h (ix2 a b) = x₂ (ix2 a ⟨b.val - B1, hb'⟩) :=
  concatenate_pair_apply_right 1 x₁ x₂ h (ix2 a b) rfl rfl (ix2 a ⟨b.val - B1, hb'⟩)
    (fun d hd => by
      match d with
      | ⟨0, _⟩ => rfl
      | ⟨1, _⟩ => exact absurd rfl hd)
    (by show (b.val - B1) + B1 = b.val; omega)

/-! ## Four column blocks -/

section Four
variable {A w0 w1 w2 w3 B : ℕ}
  (x0 : (⟨2, ![A, w0]⟩ : Shape).Idx → α) (x1 : (⟨2, ![A, w1]⟩ : Shape).Idx → α)
  (x2 : (⟨2, ![A, w2]⟩ : Shape).Idx → α) (x3 : (⟨2, ![A, w3]⟩ : Shape).Idx → α)
  (h : Shape.Concatenates [⟨2, ![A, w0]⟩, ⟨2, ![A, w1]⟩, ⟨2, ![A, w2]⟩, ⟨2, ![A, w3]⟩] ⟨2, ![A, B]⟩ 1)
  (a : Fin A) (b : Fin B)

/-- `[x0 | x1 | x2 | x3]` at a column of the first block. -/
theorem cat4_0 (hb : b.val < w0) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x0 (ix2 a ⟨b.val, hb⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 0 (by simp) _ x0 rfl rfl 0 rfl (ix2 a ⟨b.val, hb⟩)
    (fun d hd => by
      match d with
      | ⟨0, _⟩ => rfl
      | ⟨1, _⟩ => exact absurd rfl hd)
    (by show 0 + b.val = b.val; omega)

/-- … of the second block. -/
theorem cat4_1 (hb : w0 ≤ b.val) (hb' : b.val - w0 < w1) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x1 (ix2 a ⟨b.val - w0, hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 1 (by simp) _ x1 rfl rfl w0 (by simp) (ix2 a ⟨b.val - w0, hb'⟩)
    (fun d hd => by
      match d with
      | ⟨0, _⟩ => rfl
      | ⟨1, _⟩ => exact absurd rfl hd)
    (by show w0 + (b.val - w0) = b.val; omega)

/-- … of the third block. -/
theorem cat4_2 (hb : w0 + w1 ≤ b.val) (hb' : b.val - (w0 + w1) < w2) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x2 (ix2 a ⟨b.val - (w0 + w1), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 2 (by simp) _ x2 rfl rfl (w0 + w1) (by simp) (ix2 a ⟨b.val - (w0 + w1), hb'⟩)
    (fun d hd => by
      match d with
      | ⟨0, _⟩ => rfl
      | ⟨1, _⟩ => exact absurd rfl hd)
    (by show w0 + w1 + (b.val - (w0 + w1)) = b.val; omega)

/-- … of the fourth block. -/
theorem cat4_3 (hb : w0 + w1 + w2 ≤ b.val) (hb' : b.val - (w0 + w1 + w2) < w3) :
    concatenate ⟨2, ![A, B]⟩ 1 [⟨⟨2, ![A, w0]⟩, x0⟩, ⟨⟨2, ![A, w1]⟩, x1⟩, ⟨⟨2, ![A, w2]⟩, x2⟩, ⟨⟨2, ![A, w3]⟩, x3⟩] h (ix2 a b)
      = x3 (ix2 a ⟨b.val - (w0 + w1 + w2), hb'⟩) :=
  concatenate_apply_piece 1 [⟨⟨2, ![A, w0]⟩, x0⟩, ⟨⟨2, ![A, w1]⟩, x1⟩, ⟨⟨2, ![A, w2]⟩, x2⟩, ⟨⟨2, ![A, w3]⟩, x3⟩] h (ix2 a b) 3 (by simp) _ x3 rfl rfl (w0 + w1 + w2) (by simp; omega)
    (ix2 a ⟨b.val - (w0 + w1 + w2), hb'⟩)
    (fun d hd => by
      match d with
      | ⟨0, _⟩ => rfl
      | ⟨1, _⟩ => exact absurd rfl hd)
    (by show w0 + w1 + w2 + (b.val - (w0 + w1 + w2)) = b.val; omega)

end Four

/-! ## A plain matrix product as a sum over the contracted coordinate -/

section Dot
variable {A K B : ℕ} {φ₁ φ₂ : FTy}
  (d : DotDims ⟨2, ![A, K]⟩ ⟨2, ![K, B]⟩ ⟨2, ![A, B]⟩)
  (hr : d.contr.rank = 1) (hs : d.contr.size ⟨0, by omega⟩ = K)
  (hlc : d.lhsContracting = [1]) (hrc : d.rhsContracting = [0])
  (hl0 : ∀ j k, (d.lhsIdx j k 0).val = (j 0).val) (hr1 : ∀ j k, (d.rhsIdx j k 1).val = (j 1).val)
  (lhs : FVec Ideal ⟨2, ![A, K]⟩ φ₁) (rhs : FVec Ideal ⟨2, ![K, B]⟩ φ₂) (a : Fin A) (b : Fin B)

include hr hs hlc hrc hl0 hr1 in
/-- The sum over the record's contraction index, re-indexed by the contracted coordinate. -/
theorem contr_sum :
    ∑ k : d.contr.Idx, lhs (d.lhsIdx (ix2 a b) k) * rhs (d.rhsIdx (ix2 a b) k) = ∑ k : Fin K, lhs (ix2 a k) * rhs (ix2 k b) := by
  rw [← Equiv.sum_comp (contrEquiv1 d K hr hs).symm]
  refine Finset.sum_congr rfl fun k _ => ?_
  have e1 : d.lhsIdx (ix2 a b) ((contrEquiv1 d K hr hs).symm k) = ix2 a k := by
    funext c
    apply Fin.ext
    match c with
    | ⟨0, _⟩ => exact hl0 _ _
    | ⟨1, _⟩ => exact (d.lhsIdx_val_of_single hlc _ _).trans (contrEquiv1_symm_val d K hr hs k)
  have e2 : d.rhsIdx (ix2 a b) ((contrEquiv1 d K hr hs).symm k) = ix2 k b := by
    funext c
    apply Fin.ext
    match c with
    | ⟨0, _⟩ => exact (d.rhsIdx_val_of_single hrc _ _).trans (contrEquiv1_symm_val d K hr hs k)
    | ⟨1, _⟩ => exact hr1 _ _
  rw [e1, e2]

include hr hs hlc hrc hl0 hr1 in
/-- The accumulating product into a zero accumulator, at `(a, b)`. -/
theorem matmul_zero_apply (prec : Option ContractPrecision) :
    matmul d prec lhs rhs (constant ⟨2, ![A, B]⟩ .f32 0x00000000#32) (ix2 a b) = ∑ k : Fin K, lhs (ix2 a k) * rhs (ix2 k b) :=
  (Ideal.matmul_constant_zero_apply d prec lhs rhs (ix2 a b)).trans (contr_sum d hr hs hlc hrc hl0 hr1 lhs rhs a b)

include hr hs hlc hrc hl0 hr1 in
/-- The host's product, at `(a, b)`. -/
theorem hostDot_apply (prec : Option ContractPrecision) :
    Host.dotGeneral d prec lhs rhs (ix2 a b) = ∑ k : Fin K, lhs (ix2 a k) * rhs (ix2 k b) :=
  (Ideal.dotGeneral_apply d prec .single lhs rhs (ix2 a b)).trans (contr_sum d hr hs hlc hrc hl0 hr1 lhs rhs a b)

end Dot

end Cert.LibColumnBlocks

end
-- ==== Proof.TileProducts.lean ====
/-
  The two matrix products of a row tile, read at an entry.

  A tile of 2000 rows times a 256 × 256 (hidden layer) or 256 × 128 (last layer) weight matrix, accumulated into
  zero, is at row `p` and column `q` the sum over `k` of the tile's entry at `(p, k)` times the weight at `(k, q)`:
  the printed records contract the tile's columns against the weight's rows, with no batch axis.
-/
import proofs.«117710_j39848706573591_2_alg».proof.Proof.Gen.KernelIdeal
import proofs.«117710_j39848706573591_2_alg».proof.Proof.LibColumnBlocks

noncomputable section

namespace Cert.KernelIdeal.TileProducts

open Idealize.ShloMosaic Idealize.ShloMosaic.ValueIdx Cert.KernelIdeal

theorem square_l0 (j : S2000x256.Idx) (k : dot_S2000x256_S256x256_S2000x256_1_0_0_1_n_n.contr.Idx) :
    (dot_S2000x256_S256x256_S2000x256_1_0_0_1_n_n.lhsIdx j k 0).val = (j 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl

theorem square_r1 (j : S2000x256.Idx) (k : dot_S2000x256_S256x256_S2000x256_1_0_0_1_n_n.contr.Idx) :
    (dot_S2000x256_S256x256_S2000x256_1_0_0_1_n_n.rhsIdx j k 1).val = (j 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The tile's product into a zero accumulator, at row `p` and column `q`: the sum over the 256 contracted
    coordinates of the left row's entry times the right column's entry. -/
theorem square_apply {φ₁ φ₂ : FTy} (lhs : FVec Ideal S2000x256 φ₁) (rhs : FVec Ideal S256x256 φ₂) (p : Fin 2000) (q : Fin 256) :
    matmul dot_S2000x256_S256x256_S2000x256_1_0_0_1_n_n none lhs rhs (constant S2000x256 .f32 0x00000000#32) (ix2 p q) = ∑ k : Fin 256, lhs (ix2 p k) * rhs (ix2 k q) :=
  Cert.LibColumnBlocks.matmul_zero_apply dot_S2000x256_S256x256_S2000x256_1_0_0_1_n_n rfl rfl rfl rfl square_l0 square_r1 lhs rhs p q none

theorem narrow_l0 (j : S2000x128.Idx) (k : dot_S2000x256_S256x128_S2000x128_1_0_0_1_n_n.contr.Idx) :
    (dot_S2000x256_S256x128_S2000x128_1_0_0_1_n_n.lhsIdx j k 0).val = (j 0).val := by
  unfold DotDims.lhsIdx
  rw [dif_neg (show ¬(0 : Fin S2000x256.rank) ∈ dot_S2000x256_S256x128_S2000x128_1_0_0_1_n_n.lhsBatch by decide), dif_pos (show (0 : Fin S2000x256.rank) ∈ dot_S2000x256_S256x128_S2000x128_1_0_0_1_n_n.lhsNonContracting by decide)]
  rfl

theorem narrow_r1 (j : S2000x128.Idx) (k : dot_S2000x256_S256x128_S2000x128_1_0_0_1_n_n.contr.Idx) :
    (dot_S2000x256_S256x128_S2000x128_1_0_0_1_n_n.rhsIdx j k 1).val = (j 1).val := by
  unfold DotDims.rhsIdx
  rw [dif_neg (show ¬(1 : Fin S256x128.rank) ∈ dot_S2000x256_S256x128_S2000x128_1_0_0_1_n_n.rhsBatch by decide), dif_pos (show (1 : Fin S256x128.rank) ∈ dot_S2000x256_S256x128_S2000x128_1_0_0_1_n_n.rhsNonContracting by decide)]
  rfl

/-- The tile's product into a zero accumulator, at row `p` and column `q`: the sum over the 256 contracted
    coordinates of the left row's entry times the right column's entry. -/
theorem narrow_apply {φ₁ φ₂ : FTy} (lhs : FVec Ideal S2000x256 φ₁) (rhs : FVec Ideal S256x128 φ₂) (p : Fin 2000) (q : Fin 128) :
    matmul dot_S2000x256_S256x128_S2000x128_1_0_0_1_n_n none lhs rhs (constant S2000x128 .f32 0x00000000#32) (ix2 p q) = ∑ k : Fin 256, lhs (ix2 p k) * rhs (ix2 k q) :=
  Cert.LibColumnBlocks.matmul_zero_apply dot_S2000x256_S256x128_S2000x128_1_0_0_1_n_n rfl rfl rfl rfl narrow_l0 narrow_r1 lhs rhs p q none

end Cert.KernelIdeal.TileProducts

end
-- ==== Proof.TileRows.lean ====
/-
  What a row tile's body computes, entry by entry.

  Layer 0's body stores, at row `p` and column `q` of its tile, the layer's rectified row of the tile's own
  `p`-th feature row and `p`-th aggregated row. Layer 1's body stores the log-softmax of the layer's row. Both are
  read off the body's one stored value: the casts between float formats are the identity on the extended reals,
  a product into a zero accumulator is the sum over the contracted coordinate, a bias row stretched over the tile
  is the bias at the column, and the tile-wide scale `1 + eps` is the one entry of a 1 × 1 block.
-/
import proofs.«117710_j39848706573591_2_alg».proof.Proof.Gen.KernelIdeal.Skeleton
import proofs.«117710_j39848706573591_2_alg».proof.Proof.GinRows
import proofs.«117710_j39848706573591_2_alg».proof.Proof.LibRowOps
import proofs.«117710_j39848706573591_2_alg».proof.Proof.TileProducts
import Idealize.ShloMosaic.Lib.Pipeline.Value
import Idealize.ShloMosaic.Lib.ValueIdx
import Idealize.ShloMosaic.PureOps.Ideal.Laws

noncomputable section

namespace Cert.KernelIdeal.TileRows

open Idealize.ShloMosaic Idealize.ShloMosaic.ValueIdx Cert.KernelIdeal Cert.KernelIdeal.Gen Cert.GinRows

/-- A 1 × 1 block stretched over an A × B tile, at any entry: the block's one entry. -/
theorem bcast_11_ab {α : Type} {A B : ℕ} (x : (⟨2, ![1, 1]⟩ : Shape).Idx → α)
    (h : (⟨2, ![1, 1]⟩ : Shape).Broadcasts ⟨2, ![A, B]⟩) (a : Fin A) (b : Fin B) :
    broadcastTo ⟨2, ![A, B]⟩ x h (ix2 a b) = x (ix2 0 0) := by
  refine broadcastTo_apply x h _ _ fun d => ?_
  match d with
  | ⟨0, _⟩ => rfl
  | ⟨1, _⟩ => rfl

/-- The combined input `(1 + eps) · x + agg` of a tile, at row `p` and column `k`. -/
theorem combined_apply (x agg : FVec Ideal S2000x256 .f32) (e : FVec Ideal S1x1 .f32) (p : Fin 2000) (k : Fin 256) :
    (addf (mulf (broadcastTo S2000x256 (addf (broadcast S1x1 (Scalar.ofBits (F := Ideal) .f32 0x3F800000#32))
        (shapeCast S1x1 e shapeCasts_S1x1_S1x1)) broadcasts_S1x1_S2000x256) x) agg) (ix2 p k)
      = combine (e (ix2 0 0)) (fun k => x (ix2 p k)) (fun k => agg (ix2 p k)) k := by
  show broadcastTo S2000x256 (addf (broadcast S1x1 (Scalar.ofBits (F := Ideal) .f32 0x3F800000#32))
        (shapeCast S1x1 e shapeCasts_S1x1_S1x1)) broadcasts_S1x1_S2000x256 (ix2 p k) * x (ix2 p k) + agg (ix2 p k) = _
  rw [bcast_11_ab, shapeCast_self]
  rfl

/-- A tile against a square weight matrix plus a stretched bias row, rectified: the hidden row at `(p, j)`. -/
theorem hidden_apply {φ : FTy} (u : FVec Ideal S2000x256 φ) (W : FVec Ideal S256x256 .bf16) (b : FVec Ideal S1x256 .f32)
    (p : Fin 2000) (j : Fin 256) :
    (maximumf (addf (matmul dot_S2000x256_S256x256_S2000x256_1_0_0_1_n_n none u (shapeCast S256x256 W shapeCasts_S256x256_S256x256)
        (constant S2000x256 .f32 0x00000000#32))
        (broadcastTo S2000x256 (shapeCast S1x256 b shapeCasts_S1x256_S1x256) broadcasts_S1x256_S2000x256))
        (broadcast S2000x256 (Scalar.ofBits (F := Ideal) .f32 0x00000000#32))) (ix2 p j)
      = hidden (fun k j => W (ix2 k j)) (fun j => b (ix2 0 j)) (fun k => u (ix2 p k)) j := by
  show max (matmul dot_S2000x256_S256x256_S2000x256_1_0_0_1_n_n none u (shapeCast S256x256 W shapeCasts_S256x256_S256x256)
        (constant S2000x256 .f32 0x00000000#32) (ix2 p j)
      + broadcastTo S2000x256 (shapeCast S1x256 b shapeCasts_S1x256_S1x256) broadcasts_S1x256_S2000x256 (ix2 p j)) _ = _
  rw [TileProducts.square_apply, Cert.LibRowOps.bcast_1b_ab, shapeCast_self, shapeCast_self]
  rfl

/-- A tile against the last layer's 256 × 128 weight matrix plus a stretched bias row: the affine row at `(p, j)`. -/
theorem affine_apply {φ : FTy} (u : FVec Ideal S2000x256 φ) (W : FVec Ideal S256x128 .bf16) (b : FVec Ideal S1x128 .f32)
    (p : Fin 2000) (j : Fin 128) :
    (addf (matmul dot_S2000x256_S256x128_S2000x128_1_0_0_1_n_n none u (shapeCast S256x128 W shapeCasts_S256x128_S256x128)
        (constant S2000x128 .f32 0x00000000#32))
        (broadcastTo S2000x128 (shapeCast S1x128 b shapeCasts_S1x128_S1x128) broadcasts_S1x128_S2000x128)) (ix2 p j)
      = affine (fun k j => W (ix2 k j)) (fun j => b (ix2 0 j)) (fun k => u (ix2 p k)) j := by
  show matmul dot_S2000x256_S256x128_S2000x128_1_0_0_1_n_n none u (shapeCast S256x128 W shapeCasts_S256x128_S256x128)
        (constant S2000x128 .f32 0x00000000#32) (ix2 p j)
      + broadcastTo S2000x128 (shapeCast S1x128 b shapeCasts_S1x128_S1x128) broadcasts_S1x128_S2000x128 (ix2 p j) = _
  rw [TileProducts.narrow_apply, Cert.LibRowOps.bcast_1b_ab, shapeCast_self, shapeCast_self]
  rfl

/-- LAYER 0's stored tile at row `p` and column `q`: the layer's rectified row of the tile's `p`-th rows. -/
theorem layer0_apply (x agg : Vec Ideal S2000x256 .f32) (e : Vec Ideal S1x1 .f32) (W1 : Vec Ideal S256x256 .bf16)
    (b1 : Vec Ideal S1x256 .f32) (W2 : Vec Ideal S256x256 .bf16) (b2 : Vec Ideal S1x256 .f32) (p : Fin 2000) (q : Fin 256) :
    k0_pay1 (F := Ideal) x agg e W1 b1 W2 b2 (ix2 p q)
      = layer0Row (e (ix2 0 0)) (fun k j => W1 (ix2 k j)) (fun j => b1 (ix2 0 j)) (fun k j => W2 (ix2 k j))
          (fun j => b2 (ix2 0 j)) (fun k => x (ix2 p k)) (fun k => agg (ix2 p k)) q := by
  unfold k0_pay1
  refine (hidden_apply (truncf .bf16 _ bitsLt_bf16_f32) W2 b2 p q).trans ?_
  refine congrArg (fun u => hidden (fun k j => W2 (ix2 k j)) (fun j => b2 (ix2 0 j)) u q) (funext fun k => ?_)
  refine (hidden_apply (truncf .bf16 _ bitsLt_bf16_f32) W1 b1 p k).trans ?_
  refine congrArg (fun u => hidden (fun k j => W1 (ix2 k j)) (fun j => b1 (ix2 0 j)) u k) (funext fun k' => ?_)
  refine (combined_apply x (shapeCast S2000x256 agg shapeCasts_S2000x256_S2000x256) e p k').trans ?_
  rw [shapeCast_self]

/-! ## Layer 1: the logits of a tile, and their log-softmax -/

/-- A row's maximum over the 128 lanes of a tile, folded from minus infinity. -/
theorem rowMax_apply (src : FVec Ideal S2000x128 .f32) (h : S2000x128.Reduces [1] S2000) (hφ : FKind.Formats .f32)
    (hacc : (0xFF800000#32 : BitVec 32) = 0xFF800000#32) (p : Fin 2000) :
    multiReduction .maximumf [1] S2000 src 0xFF800000#32 h hφ hacc (ix1 p) = rowMax (fun k => src (ix2 p k)) := by
  refine (Ideal.multiReduction_maximumf_single src 0xFF800000#32 h hφ hacc (ix1 p)).trans ?_
  unfold rowMax
  refine congrArg (fun f => (Finset.univ : Finset (Fin 128)).fold max negInf f) (funext fun k => congrArg src ?_)
  funext d
  match d with
  | ⟨0, _⟩ => rfl
  | ⟨1, _⟩ => rfl

/-- A tile minus its row maxima stretched back over the lanes, at `(p, q)`. -/
theorem shift_apply (a : FVec Ideal S2000x128 .f32) (p : Fin 2000) (q : Fin 128) :
    (subf a (broadcastTo S2000x128 (shapeCast S2000x1 (multiReduction .maximumf [1] S2000 a 0xFF800000#32
        reduces_S2000x128_S2000 (.inl rfl) rfl) shapeCasts_S2000_S2000x1) broadcasts_S2000x1_S2000x128)) (ix2 p q)
      = a (ix2 p q) - rowMax (fun k => a (ix2 p k)) := by
  show a (ix2 p q) - broadcastTo S2000x128 (shapeCast S2000x1 (multiReduction .maximumf [1] S2000 a 0xFF800000#32
        reduces_S2000x128_S2000 (.inl rfl) rfl) shapeCasts_S2000_S2000x1) broadcasts_S2000x1_S2000x128 (ix2 p q) = _
  rw [Cert.LibRowOps.bcast_a1_ab, Cert.LibRowOps.cast_a_a1]
  exact congrArg (a (ix2 p q) - ·) (rowMax_apply a reduces_S2000x128_S2000 (.inl rfl) rfl p)

/-- The logarithm of a tile's row sums of exponentials, stretched back over the lanes, at `(p, q)`. -/
theorem logsum_apply (s : FVec Ideal S2000x128 .f32) (p : Fin 2000) (q : Fin 128) :
    (broadcastTo S2000x128 (log (shapeCast S2000x1 (multiReduction .add [1] S2000 (exp s) 0x00000000#32
        reduces_S2000x128_S2000 (.inl rfl) rfl) shapeCasts_S2000_S2000x1)) broadcasts_S2000x1_S2000x128) (ix2 p q)
      = Ideal.log (∑ k : Fin 128, Ideal.exp (s (ix2 p k))) := by
  rw [Cert.LibRowOps.bcast_a1_ab]
  show Ideal.log (shapeCast S2000x1 (multiReduction .add [1] S2000 (exp s) 0x00000000#32
        reduces_S2000x128_S2000 (.inl rfl) rfl) shapeCasts_S2000_S2000x1 (ix2 p 0)) = _
  rw [Cert.LibRowOps.cast_a_a1]
  exact congrArg Ideal.log (Cert.LibRowOps.sum_last2 (exp s) reduces_S2000x128_S2000 (.inl rfl) rfl p)

/-- The last layer's tile before the softmax: the affine map of the hidden tile of the combined input (the node
    features arrive in the narrow format and are widened, which changes nothing on the extended reals). -/
def logits (x : FVec Ideal S2000x256 .bf16) (agg : FVec Ideal S2000x256 .f32) (e : FVec Ideal S1x1 .f32)
    (W1 : FVec Ideal S256x256 .bf16) (b1 : FVec Ideal S1x256 .f32) (W2 : FVec Ideal S256x128 .bf16) (b2 : FVec Ideal S1x128 .f32) :
    FVec Ideal S2000x128 .f32 :=
  addf (matmul dot_S2000x256_S256x128_S2000x128_1_0_0_1_n_n none
      (truncf .bf16 (maximumf (addf (matmul dot_S2000x256_S256x256_S2000x256_1_0_0_1_n_n none
          (truncf .bf16 (addf (mulf (broadcastTo S2000x256 (addf (broadcast S1x1 (Scalar.ofBits (F := Ideal) .f32 0x3F800000#32))
              (shapeCast S1x1 e shapeCasts_S1x1_S1x1)) broadcasts_S1x1_S2000x256)
              (extf .f32 (shapeCast S2000x256 x shapeCasts_S2000x256_S2000x256) bitsLt_bf16_f32))
              (shapeCast S2000x256 agg shapeCasts_S2000x256_S2000x256)) bitsLt_bf16_f32)
          (shapeCast S256x256 W1 shapeCasts_S256x256_S256x256) (constant S2000x256 .f32 0x00000000#32))
          (broadcastTo S2000x256 (shapeCast S1x256 b1 shapeCasts_S1x256_S1x256) broadcasts_S1x256_S2000x256))
          (broadcast S2000x256 (Scalar.ofBits (F := Ideal) .f32 0x00000000#32))) bitsLt_bf16_f32)
      (shapeCast S256x128 W2 shapeCasts_S256x128_S256x128) (constant S2000x128 .f32 0x00000000#32))
    (broadcastTo S2000x128 (shapeCast S1x128 b2 shapeCasts_S1x128_S1x128) broadcasts_S1x128_S2000x128)

section
variable (x : Vec Ideal S2000x256 .bf16) (agg : Vec Ideal S2000x256 .f32) (e : Vec Ideal S1x1 .f32)
  (W1 : Vec Ideal S256x256 .bf16) (b1 : Vec Ideal S1x256 .f32) (W2 : Vec Ideal S256x128 .bf16) (b2 : Vec Ideal S1x128 .f32)

/-- The logits at row `p` and column `j`: the layer's row of the tile's `p`-th rows. -/
theorem logits_apply (p : Fin 2000) (j : Fin 128) :
    logits x agg e W1 b1 W2 b2 (ix2 p j)
      = layerRow (e (ix2 0 0)) (fun k j => W1 (ix2 k j)) (fun j => b1 (ix2 0 j)) (fun k j => W2 (ix2 k j))
          (fun j => b2 (ix2 0 j)) (fun k => x (ix2 p k)) (fun k => agg (ix2 p k)) j := by
  unfold logits
  refine (affine_apply (truncf .bf16 _ bitsLt_bf16_f32) W2 b2 p j).trans ?_
  refine congrArg (fun u => affine (fun k j => W2 (ix2 k j)) (fun j => b2 (ix2 0 j)) u j) (funext fun k => ?_)
  refine (hidden_apply (truncf .bf16 _ bitsLt_bf16_f32) W1 b1 p k).trans ?_
  refine congrArg (fun u => hidden (fun k j => W1 (ix2 k j)) (fun j => b1 (ix2 0 j)) u k) (funext fun k' => ?_)
  refine (combined_apply (extf .f32 (shapeCast S2000x256 x shapeCasts_S2000x256_S2000x256) bitsLt_bf16_f32)
    (shapeCast S2000x256 agg shapeCasts_S2000x256_S2000x256) e p k').trans ?_
  rw [shapeCast_self, shapeCast_self]
  rfl

/-- The shifted tile the body carries is the logits minus their row maxima. -/
theorem shifted_eq : k1_pay2 (F := Ideal) x agg e W1 b1 W2 b2
    = subf (logits x agg e W1 b1 W2 b2) (broadcastTo S2000x128 (shapeCast S2000x1 (multiReduction .maximumf [1] S2000
        (logits x agg e W1 b1 W2 b2) 0xFF800000#32 reduces_S2000x128_S2000 (.inl rfl) rfl) shapeCasts_S2000_S2000x1)
        broadcasts_S2000x1_S2000x128) := rfl

/-- LAYER 1's stored tile at row `p` and column `q`: the log-softmax of the layer's row of the tile's `p`-th rows. -/
theorem layer1_apply (p : Fin 2000) (q : Fin 128) :
    k1_pay1 (F := Ideal) (k1_pay2 x agg e W1 b1 W2 b2) (k1_pay3 x agg e W1 b1 W2 b2) (ix2 p q)
      = logSoftmaxRow (layerRow (e (ix2 0 0)) (fun k j => W1 (ix2 k j)) (fun j => b1 (ix2 0 j)) (fun k j => W2 (ix2 k j))
          (fun j => b2 (ix2 0 j)) (fun k => x (ix2 p k)) (fun k => agg (ix2 p k))) q := by
  have hs : ∀ j : Fin 128, k1_pay2 (F := Ideal) x agg e W1 b1 W2 b2 (ix2 p j)
      = layerRow (e (ix2 0 0)) (fun k j => W1 (ix2 k j)) (fun j => b1 (ix2 0 j)) (fun k j => W2 (ix2 k j))
          (fun j => b2 (ix2 0 j)) (fun k => x (ix2 p k)) (fun k => agg (ix2 p k)) j
        - rowMax (layerRow (e (ix2 0 0)) (fun k j => W1 (ix2 k j)) (fun j => b1 (ix2 0 j)) (fun k j => W2 (ix2 k j))
          (fun j => b2 (ix2 0 j)) (fun k => x (ix2 p k)) (fun k => agg (ix2 p k))) := fun j => by
    rw [shifted_eq, shift_apply]
    simp only [logits_apply]
  show k1_pay2 (F := Ideal) x agg e W1 b1 W2 b2 (ix2 p q) - k1_pay3 (F := Ideal) x agg e W1 b1 W2 b2 (ix2 p q) = _
  unfold k1_pay3
  rw [logsum_apply]
  simp only [hs]
  rfl

end

end Cert.KernelIdeal.TileRows

end
-- ==== Proof.TileCover.lean ====
/-
  From tiles of rows to whole arrays.

  Each call runs its body at 25 grid points; point `t` fetches rows `2000 t … 2000 t + 1999` of the node-feature
  array and of the aggregate, and the whole of the scale, the weights and the biases, and writes back rows
  `2000 t … 2000 t + 1999` of the output. A layer's output row depends on the node's own two rows only, so what
  point `t` writes back is the layer over the whole graph, restricted to the tile; the 25 tiles cover the 50000
  rows, so after the call the output array is the layer over the whole graph. Everything is stated at the contents
  `V` the call finds in its operand arrays.
-/
import proofs.«117710_j39848706573591_2_alg».proof.Proof.Gen.KernelIdeal.Frame
import proofs.«117710_j39848706573591_2_alg».proof.Proof.GinRows
import proofs.«117710_j39848706573591_2_alg».proof.Proof.TileRows
import Idealize.ShloMosaic.Lib.Pipeline.Value
import Idealize.ShloMosaic.Lib.ValueIdx

set_option maxRecDepth 16384

noncomputable section

namespace Cert.KernelIdeal.TileCover

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.GinRows

variable (V : (c : Dev nD) → (b : Ref sig .tc) → Buf (Elt Ideal) ((c : Thread nD τ).loc b))

theorem hz : (![0, 0] : Fin 2 → Nat) = fun _ => 0 := funext fun a => by fin_cases a <;> rfl

/-! ## Call 0: the tiles of rows and the whole array -/

theorem idx0_0 : ∀ t : Fin cfg0.N, win0_0.index t (0 : Fin 2) = 0 ∧ win0_0.index t (1 : Fin 2) = 0 :=
  (by decide +kernel : ∀ t : Fin grid0.N, _)

theorem idx0_1 : ∀ t : Fin cfg0.N, win0_1.index t (0 : Fin 2) = t.val ∧ win0_1.index t (1 : Fin 2) = 0 :=
  (by decide +kernel : ∀ t : Fin grid0.N, _)

theorem idx0_2 : ∀ t : Fin cfg0.N, win0_2.index t (0 : Fin 2) = t.val ∧ win0_2.index t (1 : Fin 2) = 0 :=
  (by decide +kernel : ∀ t : Fin grid0.N, _)

theorem idx0_3 : ∀ t : Fin cfg0.N, win0_3.index t (0 : Fin 2) = 0 ∧ win0_3.index t (1 : Fin 2) = 0 :=
  (by decide +kernel : ∀ t : Fin grid0.N, _)

theorem idx0_4 : ∀ t : Fin cfg0.N, win0_4.index t (0 : Fin 2) = 0 ∧ win0_4.index t (1 : Fin 2) = 0 :=
  (by decide +kernel : ∀ t : Fin grid0.N, _)

theorem idx0_5 : ∀ t : Fin cfg0.N, win0_5.index t (0 : Fin 2) = 0 ∧ win0_5.index t (1 : Fin 2) = 0 :=
  (by decide +kernel : ∀ t : Fin grid0.N, _)

theorem idx0_6 : ∀ t : Fin cfg0.N, win0_6.index t (0 : Fin 2) = 0 ∧ win0_6.index t (1 : Fin 2) = 0 :=
  (by decide +kernel : ∀ t : Fin grid0.N, _)

theorem idx0_7 : ∀ t : Fin cfg0.N, win0_7.index t (0 : Fin 2) = t.val ∧ win0_7.index t (1 : Fin 2) = 0 :=
  (by decide +kernel : ∀ t : Fin grid0.N, _)

/-- Window 0's block is its whole array at every point. -/
theorem blk0_0 (c : Dev nD) (t : Fin cfg0.N) (a : Fin 1) (b : Fin 1) :
    iblk0 V c 0 t (ix2 a b) = V c main_v18 (ix2 a b) := by
  obtain ⟨e0, e1⟩ := idx0_0 t
  show V c main_v18 (((cfg0.win 0).blk t).view.emb (ix2 a b)) = _
  refine congrArg (V c main_v18) (funext fun d => Fin.ext ?_)
  match d with
  | ⟨0, _⟩ => show win0_0.index t (0 : Fin 2) * 1 + 1 * a.val = a.val; omega
  | ⟨1, _⟩ => show win0_0.index t (1 : Fin 2) * 1 + 1 * b.val = b.val; omega

/-- Window 1's block at point `t` is rows `2000 t … 2000 t + 1999` of its array. -/
theorem blk0_1 (c : Dev nD) (t : Fin cfg0.N) (p : Fin 2000) (k : Fin 256) (a : Fin 50000) (ha : a.val = t.val * 2000 + p.val) :
    iblk0 V c 1 t (ix2 p k) = V c main_arg0 (ix2 a k) := by
  obtain ⟨e0, e1⟩ := idx0_1 t
  show V c main_arg0 (((cfg0.win 1).blk t).view.emb (ix2 p k)) = _
  refine congrArg (V c main_arg0) (funext fun d => Fin.ext ?_)
  match d with
  | ⟨0, _⟩ => show win0_1.index t (0 : Fin 2) * 2000 + 1 * p.val = a.val; omega
  | ⟨1, _⟩ => show win0_1.index t (1 : Fin 2) * 256 + 1 * k.val = k.val; omega

/-- Window 2's block at point `t` is rows `2000 t … 2000 t + 1999` of its array. -/
theorem blk0_2 (c : Dev nD) (t : Fin cfg0.N) (p : Fin 2000) (k : Fin 256) (a : Fin 50000) (ha : a.val = t.val * 2000 + p.val) :
    iblk0 V c 2 t (ix2 p k) = V c main_v13 (ix2 a k) := by
  obtain ⟨e0, e1⟩ := idx0_2 t
  show V c main_v13 (((cfg0.win 2).blk t).view.emb (ix2 p k)) = _
  refine congrArg (V c main_v13) (funext fun d => Fin.ext ?_)
  match d with
  | ⟨0, _⟩ => show win0_2.index t (0 : Fin 2) * 2000 + 1 * p.val = a.val; omega
  | ⟨1, _⟩ => show win0_2.index t (1 : Fin 2) * 256 + 1 * k.val = k.val; omega

/-- Window 3's block is its whole array at every point. -/
theorem blk0_3 (c : Dev nD) (t : Fin cfg0.N) (a : Fin 256) (b : Fin 256) :
    iblk0 V c 3 t (ix2 a b) = V c main_v14 (ix2 a b) := by
  obtain ⟨e0, e1⟩ := idx0_3 t
  show V c main_v14 (((cfg0.win 3).blk t).view.emb (ix2 a b)) = _
  refine congrArg (V c main_v14) (funext fun d => Fin.ext ?_)
  match d with
  | ⟨0, _⟩ => show win0_3.index t (0 : Fin 2) * 256 + 1 * a.val = a.val; omega
  | ⟨1, _⟩ => show win0_3.index t (1 : Fin 2) * 256 + 1 * b.val = b.val; omega

/-- Window 4's block is its whole array at every point. -/
theorem blk0_4 (c : Dev nD) (t : Fin cfg0.N) (a : Fin 1) (b : Fin 256) :
    iblk0 V c 4 t (ix2 a b) = V c main_v16 (ix2 a b) := by
  obtain ⟨e0, e1⟩ := idx0_4 t
  show V c main_v16 (((cfg0.win 4).blk t).view.emb (ix2 a b)) = _
  refine congrArg (V c main_v16) (funext fun d => Fin.ext ?_)
  match d with
  | ⟨0, _⟩ => show win0_4.index t (0 : Fin 2) * 1 + 1 * a.val = a.val; omega
  | ⟨1, _⟩ => show win0_4.index t (1 : Fin 2) * 256 + 1 * b.val = b.val; omega

/-- Window 5's block is its whole array at every point. -/
theorem blk0_5 (c : Dev nD) (t : Fin cfg0.N) (a : Fin 256) (b : Fin 256) :
    iblk0 V c 5 t (ix2 a b) = V c main_v15 (ix2 a b) := by
  obtain ⟨e0, e1⟩ := idx0_5 t
  show V c main_v15 (((cfg0.win 5).blk t).view.emb (ix2 a b)) = _
  refine congrArg (V c main_v15) (funext fun d => Fin.ext ?_)
  match d with
  | ⟨0, _⟩ => show win0_5.index t (0 : Fin 2) * 256 + 1 * a.val = a.val; omega
  | ⟨1, _⟩ => show win0_5.index t (1 : Fin 2) * 256 + 1 * b.val = b.val; omega

/-- Window 6's block is its whole array at every point. -/
theorem blk0_6 (c : Dev nD) (t : Fin cfg0.N) (a : Fin 1) (b : Fin 256) :
    iblk0 V c 6 t (ix2 a b) = V c main_v17 (ix2 a b) := by
  obtain ⟨e0, e1⟩ := idx0_6 t
  show V c main_v17 (((cfg0.win 6).blk t).view.emb (ix2 a b)) = _
  refine congrArg (V c main_v17) (funext fun d => Fin.ext ?_)
  match d with
  | ⟨0, _⟩ => show win0_6.index t (0 : Fin 2) * 1 + 1 * a.val = a.val; omega
  | ⟨1, _⟩ => show win0_6.index t (1 : Fin 2) * 256 + 1 * b.val = b.val; omega

/-- What call 0's output array holds after its 25 write-backs, as one function of the arrays the call finds. -/
def array0 (c : Dev nD) : S50000x256.Idx → EReal :=
  layer0 (V c main_v18 (ix2 0 0)) (fun k j => V c main_v14 (ix2 k j)) (fun j => V c main_v16 (ix2 0 j))
    (fun k j => V c main_v15 (ix2 k j)) (fun j => V c main_v17 (ix2 0 j)) (V c main_arg0) (V c main_v13)

/-- WHAT POINT `t` WRITES BACK is rows `2000 t … 2000 t + 1999` of that function: the body's tile at `(p, q)` is the
    layer's row of the tile's `p`-th rows, which are node `2000 t + p`'s. -/
theorem flushed0 (c : Dev nD) (t : Fin cfg0.N) :
    (dat0 V c).flushed 7 t = ((cfg0.win 7).blk t).view.read (Elt Ideal) (array0 V c) := by
  show (cfg0.win 7).cut (grid0.coords t) ((dat0 V c).after 7 t) = _
  rw [after0_7]
  unfold out0_7
  rw [View.canon_unit_zero hz]
  simp only [View.ld_unit_zero (S := S2000x256) hz, View.ld_unit_zero (S := S1x1) hz, View.ld_unit_zero (S := S256x256) hz, View.ld_unit_zero (S := S1x256) hz]
  funext j
  obtain ⟨p, q, rfl⟩ : ∃ (p : Fin 2000) (q : Fin 256), j = ix2 p q := ⟨j 0, j 1, eq_ix2 j⟩
  obtain ⟨e0, e1⟩ := idx0_7 t
  have hp : p.val < 2000 := p.isLt
  have ht : t.val < 25 := Nat.lt_of_lt_of_eq t.isLt N_0
  have hrow : (rowOf (((cfg0.win 7).blk t).view.emb (ix2 p q))).val = t.val * 2000 + p.val := by
    show win0_7.index t (0 : Fin 2) * 2000 + 1 * p.val = _; omega
  have hcol : colOf (((cfg0.win 7).blk t).view.emb (ix2 p q)) = q := Fin.ext (by
    show win0_7.index t (1 : Fin 2) * 256 + 1 * q.val = q.val; omega)
  refine (TileRows.layer0_apply (iblk0 V c 1 t) (iblk0 V c 2 t) (iblk0 V c 0 t) (iblk0 V c 3 t) (iblk0 V c 4 t)
    (iblk0 V c 5 t) (iblk0 V c 6 t) p q).trans ?_
  show _ = array0 V c (((cfg0.win 7).blk t).view.emb (ix2 p q))
  unfold array0 layer0
  rw [hcol]
  unfold layer0Row
  refine congrArg (fun z : Fin 256 → EReal => max (z q) zero) ?_
  exact layerRow_congr (blk0_0 V c t 0 0)
    (funext fun k => funext fun j => blk0_3 V c t k j) (funext fun j => blk0_4 V c t 0 j)
    (funext fun k => funext fun j => blk0_5 V c t k j) (funext fun j => blk0_6 V c t 0 j)
    (funext fun k => blk0_1 V c t p k _ hrow) (funext fun k => blk0_2 V c t p k _ hrow)

/-- An index of the output array is in point `t`'s block iff each coordinate is in the block's range on its axis. -/
theorem mem_blk0 (t : Fin cfg0.N) (i : S50000x256.Idx) :
    i ∈ ((cfg0.win 7).blk t).view.set ↔ ∀ a : Fin 2, win0_7.index t a * S2000x256.size a ≤ (i a).val
      ∧ (i a).val < win0_7.index t a * S2000x256.size a + S2000x256.size a := by
  show i ∈ ((View.whole main_v19).slice (win0_7.rect t)).set ↔ _
  rw [View.set_slice_whole, Rect.mem_set_unit]
  exact Iff.rfl

/-- The 25 blocks of 2000 rows tile the 50000 rows: row `a` is in the block of point `a / 2000`. -/
theorem cover0 (i : S50000x256.Idx) :
    ∃ t : Fin cfg0.N, (cfg0.win 7).flush t = true ∧ i ∈ ((cfg0.win 7).blk t).view.set := by
  have hi0 : (i 0).val < 50000 := (i 0).isLt
  have hi1 : (i 1).val < 256 := (i 1).isLt
  have hN : cfg0.N = 25 := N_0
  refine ⟨⟨(i 0).val / 2000, by rw [hN]; omega⟩, flush0_7 _, ?_⟩
  obtain ⟨e0, e1⟩ := idx0_7 ⟨(i 0).val / 2000, by rw [hN]; omega⟩
  rw [mem_blk0]
  intro a
  match a with
  | ⟨0, _⟩ =>
    show win0_7.index _ (0 : Fin 2) * 2000 ≤ (i 0).val ∧ (i 0).val < win0_7.index _ (0 : Fin 2) * 2000 + 2000
    rw [e0]; show (i 0).val / 2000 * 2000 ≤ (i 0).val ∧ (i 0).val < (i 0).val / 2000 * 2000 + 2000; omega
  | ⟨1, _⟩ =>
    show win0_7.index _ (1 : Fin 2) * 256 ≤ (i 1).val ∧ (i 1).val < win0_7.index _ (1 : Fin 2) * 256 + 256
    rw [e1]; omega

/-- THE OUTPUT ARRAY after call 0: the layer over the whole graph, of the arrays the call finds. -/
theorem final0 (c : Dev nD) : (dat0 V c).arrAt 7 cfg0.N = array0 V c :=
  (dat0 V c).arrAt_eq_of_cover 7 (array0 V c) (fun t _ => flushed0 V c t) cover0

/-! ## Call 1: the tiles of rows and the whole array -/

theorem idx1_0 : ∀ t : Fin cfg1.N, win1_0.index t (0 : Fin 2) = 0 ∧ win1_0.index t (1 : Fin 2) = 0 :=
  (by decide +kernel : ∀ t : Fin grid1.N, _)

theorem idx1_1 : ∀ t : Fin cfg1.N, win1_1.index t (0 : Fin 2) = t.val ∧ win1_1.index t (1 : Fin 2) = 0 :=
  (by decide +kernel : ∀ t : Fin grid1.N, _)

theorem idx1_2 : ∀ t : Fin cfg1.N, win1_2.index t (0 : Fin 2) = t.val ∧ win1_2.index t (1 : Fin 2) = 0 :=
  (by decide +kernel : ∀ t : Fin grid1.N, _)

theorem idx1_3 : ∀ t : Fin cfg1.N, win1_3.index t (0 : Fin 2) = 0 ∧ win1_3.index t (1 : Fin 2) = 0 :=
  (by decide +kernel : ∀ t : Fin grid1.N, _)

theorem idx1_4 : ∀ t : Fin cfg1.N, win1_4.index t (0 : Fin 2) = 0 ∧ win1_4.index t (1 : Fin 2) = 0 :=
  (by decide +kernel : ∀ t : Fin grid1.N, _)

theorem idx1_5 : ∀ t : Fin cfg1.N, win1_5.index t (0 : Fin 2) = 0 ∧ win1_5.index t (1 : Fin 2) = 0 :=
  (by decide +kernel : ∀ t : Fin grid1.N, _)

theorem idx1_6 : ∀ t : Fin cfg1.N, win1_6.index t (0 : Fin 2) = 0 ∧ win1_6.index t (1 : Fin 2) = 0 :=
  (by decide +kernel : ∀ t : Fin grid1.N, _)

theorem idx1_7 : ∀ t : Fin cfg1.N, win1_7.index t (0 : Fin 2) = t.val ∧ win1_7.index t (1 : Fin 2) = 0 :=
  (by decide +kernel : ∀ t : Fin grid1.N, _)

/-- Window 0's block is its whole array at every point. -/
theorem blk1_0 (c : Dev nD) (t : Fin cfg1.N) (a : Fin 1) (b : Fin 1) :
    iblk1 V c 0 t (ix2 a b) = V c main_v35 (ix2 a b) := by
  obtain ⟨e0, e1⟩ := idx1_0 t
  show V c main_v35 (((cfg1.win 0).blk t).view.emb (ix2 a b)) = _
  refine congrArg (V c main_v35) (funext fun d => Fin.ext ?_)
  match d with
  | ⟨0, _⟩ => show win1_0.index t (0 : Fin 2) * 1 + 1 * a.val = a.val; omega
  | ⟨1, _⟩ => show win1_0.index t (1 : Fin 2) * 1 + 1 * b.val = b.val; omega

/-- Window 1's block at point `t` is rows `2000 t … 2000 t + 1999` of its array. -/
theorem blk1_1 (c : Dev nD) (t : Fin cfg1.N) (p : Fin 2000) (k : Fin 256) (a : Fin 50000) (ha : a.val = t.val * 2000 + p.val) :
    iblk1 V c 1 t (ix2 p k) = V c main_v19 (ix2 a k) := by
  obtain ⟨e0, e1⟩ := idx1_1 t
  show V c main_v19 (((cfg1.win 1).blk t).view.emb (ix2 p k)) = _
  refine congrArg (V c main_v19) (funext fun d => Fin.ext ?_)
  match d with
  | ⟨0, _⟩ => show win1_1.index t (0 : Fin 2) * 2000 + 1 * p.val = a.val; omega
  | ⟨1, _⟩ => show win1_1.index t (1 : Fin 2) * 256 + 1 * k.val = k.val; omega

/-- Window 2's block at point `t` is rows `2000 t … 2000 t + 1999` of its array. -/
theorem blk1_2 (c : Dev nD) (t : Fin cfg1.N) (p : Fin 2000) (k : Fin 256) (a : Fin 50000) (ha : a.val = t.val * 2000 + p.val) :
    iblk1 V c 2 t (ix2 p k) = V c main_v30 (ix2 a k) := by
  obtain ⟨e0, e1⟩ := idx1_2 t
  show V c main_v30 (((cfg1.win 2).blk t).view.emb (ix2 p k)) = _
  refine congrArg (V c main_v30) (funext fun d => Fin.ext ?_)
  match d with
  | ⟨0, _⟩ => show win1_2.index t (0 : Fin 2) * 2000 + 1 * p.val = a.val; omega
  | ⟨1, _⟩ => show win1_2.index t (1 : Fin 2) * 256 + 1 * k.val = k.val; omega

/-- Window 3's block is its whole array at every point. -/
theorem blk1_3 (c : Dev nD) (t : Fin cfg1.N) (a : Fin 256) (b : Fin 256) :
    iblk1 V c 3 t (ix2 a b) = V c main_v31 (ix2 a b) := by
  obtain ⟨e0, e1⟩ := idx1_3 t
  show V c main_v31 (((cfg1.win 3).blk t).view.emb (ix2 a b)) = _
  refine congrArg (V c main_v31) (funext fun d => Fin.ext ?_)
  match d with
  | ⟨0, _⟩ => show win1_3.index t (0 : Fin 2) * 256 + 1 * a.val = a.val; omega
  | ⟨1, _⟩ => show win1_3.index t (1 : Fin 2) * 256 + 1 * b.val = b.val; omega

/-- Window 4's block is its whole array at every point. -/
theorem blk1_4 (c : Dev nD) (t : Fin cfg1.N) (a : Fin 1) (b : Fin 256) :
    iblk1 V c 4 t (ix2 a b) = V c main_v33 (ix2 a b) := by
  obtain ⟨e0, e1⟩ := idx1_4 t
  show V c main_v33 (((cfg1.win 4).blk t).view.emb (ix2 a b)) = _
  refine congrArg (V c main_v33) (funext fun d => Fin.ext ?_)
  match d with
  | ⟨0, _⟩ => show win1_4.index t (0 : Fin 2) * 1 + 1 * a.val = a.val; omega
  | ⟨1, _⟩ => show win1_4.index t (1 : Fin 2) * 256 + 1 * b.val = b.val; omega

/-- Window 5's block is its whole array at every point. -/
theorem blk1_5 (c : Dev nD) (t : Fin cfg1.N) (a : Fin 256) (b : Fin 128) :
    iblk1 V c 5 t (ix2 a b) = V c main_v32 (ix2 a b) := by
  obtain ⟨e0, e1⟩ := idx1_5 t
  show V c main_v32 (((cfg1.win 5).blk t).view.emb (ix2 a b)) = _
  refine congrArg (V c main_v32) (funext fun d => Fin.ext ?_)
  match d with
  | ⟨0, _⟩ => show win1_5.index t (0 : Fin 2) * 256 + 1 * a.val = a.val; omega
  | ⟨1, _⟩ => show win1_5.index t (1 : Fin 2) * 128 + 1 * b.val = b.val; omega

/-- Window 6's block is its whole array at every point. -/
theorem blk1_6 (c : Dev nD) (t : Fin cfg1.N) (a : Fin 1) (b : Fin 128) :
    iblk1 V c 6 t (ix2 a b) = V c main_v34 (ix2 a b) := by
  obtain ⟨e0, e1⟩ := idx1_6 t
  show V c main_v34 (((cfg1.win 6).blk t).view.emb (ix2 a b)) = _
  refine congrArg (V c main_v34) (funext fun d => Fin.ext ?_)
  match d with
  | ⟨0, _⟩ => show win1_6.index t (0 : Fin 2) * 1 + 1 * a.val = a.val; omega
  | ⟨1, _⟩ => show win1_6.index t (1 : Fin 2) * 128 + 1 * b.val = b.val; omega

/-- What call 1's output array holds after its 25 write-backs, as one function of the arrays the call finds. -/
def array1 (c : Dev nD) : S50000x128.Idx → EReal :=
  layer1 (V c main_v35 (ix2 0 0)) (fun k j => V c main_v31 (ix2 k j)) (fun j => V c main_v33 (ix2 0 j))
    (fun k j => V c main_v32 (ix2 k j)) (fun j => V c main_v34 (ix2 0 j)) (V c main_v19) (V c main_v30)

/-- WHAT POINT `t` WRITES BACK is rows `2000 t … 2000 t + 1999` of that function: the body's tile at `(p, q)` is the
    layer's row of the tile's `p`-th rows, which are node `2000 t + p`'s. -/
theorem flushed1 (c : Dev nD) (t : Fin cfg1.N) :
    (dat1 V c).flushed 7 t = ((cfg1.win 7).blk t).view.read (Elt Ideal) (array1 V c) := by
  show (cfg1.win 7).cut (grid1.coords t) ((dat1 V c).after 7 t) = _
  rw [after1_7]
  unfold out1_7
  rw [View.canon_unit_zero hz]
  simp only [View.ld_unit_zero (S := S2000x256) hz, View.ld_unit_zero (S := S1x1) hz, View.ld_unit_zero (S := S256x256) hz, View.ld_unit_zero (S := S1x256) hz, View.ld_unit_zero (S := S256x128) hz, View.ld_unit_zero (S := S1x128) hz, View.ld_unit_zero (S := S2000x128) hz]
  funext j
  obtain ⟨p, q, rfl⟩ : ∃ (p : Fin 2000) (q : Fin 128), j = ix2 p q := ⟨j 0, j 1, eq_ix2 j⟩
  obtain ⟨e0, e1⟩ := idx1_7 t
  have hp : p.val < 2000 := p.isLt
  have ht : t.val < 25 := Nat.lt_of_lt_of_eq t.isLt N_1
  have hrow : (rowOf (((cfg1.win 7).blk t).view.emb (ix2 p q))).val = t.val * 2000 + p.val := by
    show win1_7.index t (0 : Fin 2) * 2000 + 1 * p.val = _; omega
  have hcol : colOf (((cfg1.win 7).blk t).view.emb (ix2 p q)) = q := Fin.ext (by
    show win1_7.index t (1 : Fin 2) * 128 + 1 * q.val = q.val; omega)
  refine (TileRows.layer1_apply (iblk1 V c 1 t) (iblk1 V c 2 t) (iblk1 V c 0 t) (iblk1 V c 3 t) (iblk1 V c 4 t)
    (iblk1 V c 5 t) (iblk1 V c 6 t) p q).trans ?_
  show _ = array1 V c (((cfg1.win 7).blk t).view.emb (ix2 p q))
  unfold array1 layer1
  rw [hcol]
  refine congrArg (fun z : Fin 128 → EReal => logSoftmaxRow z q) ?_
  exact layerRow_congr (blk1_0 V c t 0 0)
    (funext fun k => funext fun j => blk1_3 V c t k j) (funext fun j => blk1_4 V c t 0 j)
    (funext fun k => funext fun j => blk1_5 V c t k j) (funext fun j => blk1_6 V c t 0 j)
    (funext fun k => blk1_1 V c t p k _ hrow) (funext fun k => blk1_2 V c t p k _ hrow)

/-- An index of the output array is in point `t`'s block iff each coordinate is in the block's range on its axis. -/
theorem mem_blk1 (t : Fin cfg1.N) (i : S50000x128.Idx) :
    i ∈ ((cfg1.win 7).blk t).view.set ↔ ∀ a : Fin 2, win1_7.index t a * S2000x128.size a ≤ (i a).val
      ∧ (i a).val < win1_7.index t a * S2000x128.size a + S2000x128.size a := by
  show i ∈ ((View.whole main_v36).slice (win1_7.rect t)).set ↔ _
  rw [View.set_slice_whole, Rect.mem_set_unit]
  exact Iff.rfl

/-- The 25 blocks of 2000 rows tile the 50000 rows: row `a` is in the block of point `a / 2000`. -/
theorem cover1 (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 25 := N_1
  refine ⟨⟨(i 0).val / 2000, by rw [hN]; omega⟩, flush1_7 _, ?_⟩
  obtain ⟨e0, e1⟩ := idx1_7 ⟨(i 0).val / 2000, by rw [hN]; omega⟩
  rw [mem_blk1]
  intro a
  match a with
  | ⟨0, _⟩ =>
    show win1_7.index _ (0 : Fin 2) * 2000 ≤ (i 0).val ∧ (i 0).val < win1_7.index _ (0 : Fin 2) * 2000 + 2000
    rw [e0]; show (i 0).val / 2000 * 2000 ≤ (i 0).val ∧ (i 0).val < (i 0).val / 2000 * 2000 + 2000; omega
  | ⟨1, _⟩ =>
    show win1_7.index _ (1 : Fin 2) * 128 ≤ (i 1).val ∧ (i 1).val < win1_7.index _ (1 : Fin 2) * 128 + 128
    rw [e1]; omega

/-- THE OUTPUT ARRAY after call 1: the layer over the whole graph, of the arrays the call finds. -/
theorem final1 (c : Dev nD) : (dat1 V c).arrAt 7 cfg1.N = array1 V c :=
  (dat1 V c).arrAt_eq_of_cover 7 (array1 V c) (fun t _ => flushed1 V c t) cover1

end Cert.KernelIdeal.TileCover

end
-- ==== Proof.Operands.lean ====
/-
  What each call finds in its operand arrays, as functions of the launch arguments.

  Before the first call the host slices the edge list into its source and destination rows, wraps negative source
  indices by the node count, gathers the source nodes' feature rows and adds them up per destination node (the
  neighbour sum), narrows the weights (the identity on the extended reals) and lays the biases and the scale out
  as one-row and one-entry arrays. Between the calls it does the same with layer 0's output in place of the
  features and layer 1's parameters. Nothing here depends on what the gather and the scatter compute: they are the
  same operations of the same arrays in the reference.
-/
import proofs.«117710_j39848706573591_2_alg».proof.Proof.Gen.KernelIdeal.Frame
import proofs.«117710_j39848706573591_2_alg».proof.Proof.TileCover
import Idealize.ShloMosaic.Lib.StableHlo.Run

set_option maxRecDepth 16384

noncomputable section

namespace Cert.KernelIdeal.Operands

open Idealize.ShloMosaic Idealize.ShloMosaic.TcCoe Idealize.ShloMosaic.ValueIdx Idealize.SL.Sem Idealize.ShloMosaic.StableHlo
open Cert.KernelIdeal Cert.KernelIdeal.Gen Cert.GinRows

/-- The edges' source rows as gather indices: row 0 of the edge list, a negative index wrapped by the node count. -/
def srcRows (e : (⟨S2x800000, .i32⟩ : BufTy).Contents (Elt Ideal)) : (⟨S800000x1, .i32⟩ : BufTy).Contents (Elt Ideal) :=
  broadcastInDim S800000x1 ![0] bcast_S800000_S800000x1_0
    (select (cmpi .slt (shapeCast S800000 (extractStridedSlice S1x800000 ![0, 0] e slices_S2x800000_S1x800000_0_0) shapeCasts_S1x800000_S800000)
        (broadcastInDim S800000 ![] bcast_S_S800000 (constantI S_ 32 0#32)))
      (addi (shapeCast S800000 (extractStridedSlice S1x800000 ![0, 0] e slices_S2x800000_S1x800000_0_0) shapeCasts_S1x800000_S800000)
        (broadcastInDim S800000 ![] bcast_S_S800000 (constantI S_ 32 50000#32)))
      (shapeCast S800000 (extractStridedSlice S1x800000 ![0, 0] e slices_S2x800000_S1x800000_0_0) shapeCasts_S1x800000_S800000))

/-- The edges' destination rows as scatter indices: row 1 of the edge list. -/
def dstRows (e : (⟨S2x800000, .i32⟩ : BufTy).Contents (Elt Ideal)) : (⟨S800000x1, .i32⟩ : BufTy).Contents (Elt Ideal) :=
  broadcastInDim S800000x1 ![0] bcast_S800000_S800000x1_0
    (shapeCast S800000 (extractStridedSlice S1x800000 ![1, 0] e slices_S2x800000_S1x800000_1_0) shapeCasts_S1x800000_S800000)

/-- The neighbour sum: every edge's source row of `h`, added into its destination node's row of a zero array. -/
def neighbourSum (h : FVec Ideal S50000x256 .f32) (e : (⟨S2x800000, .i32⟩ : BufTy).Contents (Elt Ideal)) : FVec Ideal S50000x256 .f32 :=
  Host.scatterAdd scatter_S50000x256_S800000x1_S800000x256_1_0_0_1
    (broadcastInDim S50000x256 ![] bcast_S_S50000x256 (constant (F := Ideal) S_ .f32 0x00000000#32))
    (dstRows e) (Host.gather gather_S50000x256_S800000x1_S800000x256_1_0_n_n_0_1_1256 h (srcRows e))

variable (m : (ℓ : Loc nD τ sig) → Buf (Elt Ideal) ℓ) (ρ : Dev nD → PrngReg)

/-! ## Call 0's operands -/

theorem scale0 (c : Dev nD) : (V1 m ρ c main_v18 : S1x1.Idx → EReal)
    = shapeCast S1x1 (m ((c : Thread nD τ).loc main_arg2)) shapeCasts_S_S1x1 := by
  show StableHlo.after hostOps0 (W0 m ρ c) (Proc.devRef .tc main_v18) = _
  after_results <;> rfl

theorem features0 (c : Dev nD) : (V1 m ρ c main_arg0 : S50000x256.Idx → EReal) = m ((c : Thread nD τ).loc main_arg0) := by
  show StableHlo.after hostOps0 (W0 m ρ c) (Proc.devRef .tc main_arg0) = _
  after_results <;> rfl

theorem aggregate0 (c : Dev nD) : (V1 m ρ c main_v13 : S50000x256.Idx → EReal)
    = neighbourSum (m ((c : Thread nD τ).loc main_arg0)) (m ((c : Thread nD τ).loc main_arg1)) := by
  show StableHlo.after hostOps0 (W0 m ρ c) (Proc.devRef .tc main_v13) = _
  after_results <;> rfl

theorem weights0a (c : Dev nD) : (V1 m ρ c main_v14 : S256x256.Idx → EReal) = m ((c : Thread nD τ).loc main_arg3) := by
  show StableHlo.after hostOps0 (W0 m ρ c) (Proc.devRef .tc main_v14) = _
  after_results <;> rfl

theorem bias0a (c : Dev nD) : (V1 m ρ c main_v16 : S1x256.Idx → EReal)
    = shapeCast S1x256 (m ((c : Thread nD τ).loc main_arg4)) shapeCasts_S256_S1x256 := by
  show StableHlo.after hostOps0 (W0 m ρ c) (Proc.devRef .tc main_v16) = _
  after_results <;> rfl

theorem weights0b (c : Dev nD) : (V1 m ρ c main_v15 : S256x256.Idx → EReal) = m ((c : Thread nD τ).loc main_arg5) := by
  show StableHlo.after hostOps0 (W0 m ρ c) (Proc.devRef .tc main_v15) = _
  after_results <;> rfl

theorem bias0b (c : Dev nD) : (V1 m ρ c main_v17 : S1x256.Idx → EReal)
    = shapeCast S1x256 (m ((c : Thread nD τ).loc main_arg6)) shapeCasts_S256_S1x256 := by
  show StableHlo.after hostOps0 (W0 m ρ c) (Proc.devRef .tc main_v17) = _
  after_results <;> rfl

/-! ## Unit-axis recasts read at an entry -/

/-- A scalar recast as a 1 × 1 array, at its one entry: the scalar. -/
theorem cast_scalar {α : Type} (x : S_.Idx → α) (h : S_.ShapeCasts S1x1) : shapeCast S1x1 x h (ix2 0 0) = x ix0 := by
  unfold shapeCast
  exact congrArg x (funext fun a => a.elim0)

/-- A vector of length C recast as a 1 × C array, at `(0, j)`: the vector at `j`. -/
theorem cast_row {α : Type} {C : ℕ} (x : (⟨1, ![C]⟩ : Shape).Idx → α) (h : (⟨1, ![C]⟩ : Shape).ShapeCasts ⟨2, ![1, C]⟩) (j : Fin C) :
    shapeCast ⟨2, ![1, C]⟩ x h (ix2 0 j) = x (ix1 j) := by
  refine shapeCast_apply x h _ _ ?_
  rw [Shape.rowMajor_val_one, Shape.rowMajor_val_two]
  show j.val = 0 * C + j.val
  omega

/-! ## What the first call leaves, and what the host reads back between the calls -/

/-- Layer 0's output array after the first call: the layer over the whole graph, of the first call's operands. -/
theorem hidden_array (c : Dev nD) : (W2 m ρ c (Proc.devRef .tc main_v19) : S50000x256.Idx → EReal) = TileCover.array0 (V1 m ρ) c :=
  (W2_arr m ρ c 7).trans (TileCover.final0 (V1 m ρ) c)

theorem kept_main_arg1 (c : Dev nD) : W2 m ρ c (Proc.devRef .tc main_arg1) = m ((c : Thread nD τ).loc main_arg1) := by
  rw [W2_of_ne m ρ c main_arg1 (by decide)]
  show StableHlo.after hostOps0 (W0 m ρ c) (Proc.devRef .tc main_arg1) = _
  after_results <;> rfl

theorem kept_main_arg7 (c : Dev nD) : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results <;> rfl

theorem kept_main_arg8 (c : Dev nD) : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results <;> rfl

theorem kept_main_arg9 (c : Dev nD) : W2 m ρ c (Proc.devRef .tc main_arg9) = m ((c : Thread nD τ).loc main_arg9) := by
  rw [W2_of_ne m ρ c main_arg9 (by decide)]
  show StableHlo.after hostOps0 (W0 m ρ c) (Proc.devRef .tc main_arg9) = _
  after_results <;> rfl

theorem kept_main_arg10 (c : Dev nD) : W2 m ρ c (Proc.devRef .tc main_arg10) = m ((c : Thread nD τ).loc main_arg10) := by
  rw [W2_of_ne m ρ c main_arg10 (by decide)]
  show StableHlo.after hostOps0 (W0 m ρ c) (Proc.devRef .tc main_arg10) = _
  after_results <;> rfl

theorem kept_main_arg11 (c : Dev nD) : W2 m ρ c (Proc.devRef .tc main_arg11) = m ((c : Thread nD τ).loc main_arg11) := by
  rw [W2_of_ne m ρ c main_arg11 (by decide)]
  show StableHlo.after hostOps0 (W0 m ρ c) (Proc.devRef .tc main_arg11) = _
  after_results <;> rfl

/-- The edges' source row, computed before the first call, is still there after it. -/
theorem kept_src (c : Dev nD) : W2 m ρ c (Proc.devRef .tc main_v1)
    = shapeCast S800000 (extractStridedSlice S1x800000 ![0, 0] (m ((c : Thread nD τ).loc main_arg1)) slices_S2x800000_S1x800000_0_0) shapeCasts_S1x800000_S800000 := by
  rw [W2_of_ne m ρ c main_v1 (by decide)]
  show StableHlo.after hostOps0 (W0 m ρ c) (Proc.devRef .tc main_v1) = _
  after_results <;> rfl

/-- So is the destination row. -/
theorem kept_dst (c : Dev nD) : W2 m ρ c (Proc.devRef .tc main_v3)
    = shapeCast S800000 (extractStridedSlice S1x800000 ![1, 0] (m ((c : Thread nD τ).loc main_arg1)) slices_S2x800000_S1x800000_1_0) shapeCasts_S1x800000_S800000 := by
  rw [W2_of_ne m ρ c main_v3 (by decide)]
  show StableHlo.after hostOps0 (W0 m ρ c) (Proc.devRef .tc main_v3) = _
  after_results <;> rfl

/-! ## Call 1's operands -/

theorem scale1 (c : Dev nD) : (V3 m ρ c main_v35 : S1x1.Idx → EReal) = shapeCast S1x1 (m ((c : Thread nD τ).loc main_arg7)) shapeCasts_S_S1x1 := by
  show StableHlo.after hostOps1 (W2 m ρ c) (Proc.devRef .tc main_v35) = _
  after_results
  rw [kept_main_arg7]
  rfl

theorem features1 (c : Dev nD) : (V3 m ρ c main_v19 : S50000x256.Idx → EReal) = TileCover.array0 (V1 m ρ) c := by
  show StableHlo.after hostOps1 (W2 m ρ c) (Proc.devRef .tc main_v19) = _
  after_results
  exact hidden_array m ρ c

theorem aggregate1 (c : Dev nD) : (V3 m ρ c main_v30 : S50000x256.Idx → EReal)
    = neighbourSum (TileCover.array0 (V1 m ρ) c) (m ((c : Thread nD τ).loc main_arg1)) := by
  show StableHlo.after hostOps1 (W2 m ρ c) (Proc.devRef .tc main_v30) = _
  after_results
  rw [kept_src, kept_dst, hidden_array]
  rfl

theorem weights1a (c : Dev nD) : (V3 m ρ c main_v31 : S256x256.Idx → EReal) = (m ((c : Thread nD τ).loc main_arg8)) := by
  show StableHlo.after hostOps1 (W2 m ρ c) (Proc.devRef .tc main_v31) = _
  after_results
  rw [kept_main_arg8]; rfl

theorem bias1a (c : Dev nD) : (V3 m ρ c main_v33 : S1x256.Idx → EReal) = shapeCast S1x256 (m ((c : Thread nD τ).loc main_arg9)) shapeCasts_S256_S1x256 := by
  show StableHlo.after hostOps1 (W2 m ρ c) (Proc.devRef .tc main_v33) = _
  after_results
  rw [kept_main_arg9]
  rfl

theorem weights1b (c : Dev nD) : (V3 m ρ c main_v32 : S256x128.Idx → EReal) = (m ((c : Thread nD τ).loc main_arg10)) := by
  show StableHlo.after hostOps1 (W2 m ρ c) (Proc.devRef .tc main_v32) = _
  after_results
  rw [kept_main_arg10]; rfl

theorem bias1b (c : Dev nD) : (V3 m ρ c main_v34 : S1x128.Idx → EReal) = shapeCast S1x128 (m ((c : Thread nD τ).loc main_arg11)) shapeCasts_S128_S1x128 := by
  show StableHlo.after hostOps1 (W2 m ρ c) (Proc.devRef .tc main_v34) = _
  after_results
  rw [kept_main_arg11]
  rfl

/-! ## The kernel's result as one function of the launch arguments -/

/-- Layer 0's output over the whole graph, of the launch arguments. -/
def hiddenOf (c : Dev nD) : FVec Ideal S50000x256 .f32 :=
  layer0 ((m ((c : Thread nD τ).loc main_arg2)) ix0) (fun k j => (m ((c : Thread nD τ).loc main_arg3)) (ix2 k j)) (fun j => (m ((c : Thread nD τ).loc main_arg4)) (ix1 j))
    (fun k j => (m ((c : Thread nD τ).loc main_arg5)) (ix2 k j)) (fun j => (m ((c : Thread nD τ).loc main_arg6)) (ix1 j))
    (m ((c : Thread nD τ).loc main_arg0)) (neighbourSum (m ((c : Thread nD τ).loc main_arg0)) (m ((c : Thread nD τ).loc main_arg1)))

/-- The first call's output array is layer 0 of the launch arguments. -/
theorem array0_eq (c : Dev nD) : TileCover.array0 (V1 m ρ) c = hiddenOf m c := by
  unfold TileCover.array0 hiddenOf
  rw [scale0, features0, aggregate0, weights0a, bias0a, weights0b, bias0b]
  simp only [cast_scalar, cast_row]

/-- THE RESULT: what the result buffer holds at the last boundary is layer 1 — with its log-softmax — of layer 0's
    output and its neighbour sum. -/
theorem result_eq (c : Dev nD) : (W4 m ρ c (Proc.devRef .tc main_v36) : S50000x128.Idx → EReal)
    = layer1 ((m ((c : Thread nD τ).loc main_arg7)) ix0) (fun k j => (m ((c : Thread nD τ).loc main_arg8)) (ix2 k j)) (fun j => (m ((c : Thread nD τ).loc main_arg9)) (ix1 j))
        (fun k j => (m ((c : Thread nD τ).loc main_arg10)) (ix2 k j)) (fun j => (m ((c : Thread nD τ).loc main_arg11)) (ix1 j))
        (hiddenOf m c) (neighbourSum (hiddenOf m c) (m ((c : Thread nD τ).loc main_arg1))) := by
  refine ((W4_arr m ρ c 7).trans (TileCover.final1 (V3 m ρ) c)).trans ?_
  unfold TileCover.array1
  rw [scale1, features1, aggregate1, weights1a, bias1a, weights1b, bias1b, array0_eq]
  simp only [cast_scalar, cast_row]

end Cert.KernelIdeal.Operands

end
-- ==== Proof.RefStages.lean ====
/-
  The reference's operations, run in order, leave each stage function in its buffer.

  The reference is 83 host operations in a row. Written out as one term of the arguments, its result repeats layer 0's
  output about eight times over (it feeds the second neighbour sum and the second combine; the logits feed the row
  maximum and the difference; the difference feeds the sum of exponentials and the result). Read in eight stretches
  cut where a value is used more than once — after the first neighbour sum, after layer 0, after the second neighbour
  sum, after the logits, and three times inside the log-softmax — every stretch is a couple of dozen operations of buffers whose contents are already named,
  and nothing is repeated. What the whole list leaves in the result buffer is then the last stage function of the
  arguments.
-/
import proofs.«117710_j39848706573591_2_alg».proof.Proof.RefRead
import Idealize.ShloMosaic.Lib.StableHlo.Run

set_option maxRecDepth 16384

noncomputable section

namespace Cert.ReferenceIdeal.Stages

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- Running one list of operations after another is running their concatenation. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The edge indices and the first neighbour sum. -/
def opsA : List (HloOp τ sig (Elt F)) := (ops (F := F)).take 17
/-- Layer 0, to the second rectifier. -/
def opsB : List (HloOp τ sig (Elt F)) := ((ops (F := F)).drop 17).take 22
/-- The second neighbour sum, of layer 0's output. -/
def opsC : List (HloOp τ sig (Elt F)) := ((ops (F := F)).drop 39).take 13
/-- Layer 1, to the logits. -/
def opsD : List (HloOp τ sig (Elt F)) := ((ops (F := F)).drop 52).take 16
/-- The log-softmax: the logits' row maxima. -/
def opsE : List (HloOp τ sig (Elt F)) := ((ops (F := F)).drop 68).take 5
/-- The log-softmax: the logits shifted by their row maxima. -/
def opsG : List (HloOp τ sig (Elt F)) := ((ops (F := F)).drop 73).take 3
/-- The log-softmax: the row sums of the exponentials. -/
def opsH : List (HloOp τ sig (Elt F)) := ((ops (F := F)).drop 76).take 3
/-- The log-softmax: the shifted logits minus the logarithm of those sums. -/
def opsK : List (HloOp τ sig (Elt F)) := ((ops (F := F)).drop 79).take 4

theorem ops_split : (ops (F := F)) = opsA ++ (opsB ++ (opsC ++ (opsD ++ (opsE ++ (opsG ++ (opsH ++ (opsK))))))) := rfl

variable (W : Valuation τ sig (Elt F))

/-! ## The edge indices and the first neighbour sum. -/

theorem A_main_v13 : after opsA W (Proc.devRef .tc main_v13) = val_main_v13 (F := F) (W (Proc.devRef .tc main_arg0)) (W (Proc.devRef .tc main_arg1)) := by
  unfold opsA
  simp only [ops, List.drop_succ_cons, List.drop_zero, List.take_succ_cons, List.take_zero]
  after_results_simp
  rfl

theorem A_main_v1 : after opsA W (Proc.devRef .tc main_v1) = val_main_v1 (F := F) (W (Proc.devRef .tc main_arg1)) := by
  unfold opsA
  simp only [ops, List.drop_succ_cons, List.drop_zero, List.take_succ_cons, List.take_zero]
  after_results_simp
  rfl

theorem A_main_v3 : after opsA W (Proc.devRef .tc main_v3) = val_main_v3 (F := F) (W (Proc.devRef .tc main_arg1)) := by
  unfold opsA
  simp only [ops, List.drop_succ_cons, List.drop_zero, List.take_succ_cons, List.take_zero]
  after_results_simp
  rfl

theorem A_main_arg0 : after opsA W (Proc.devRef .tc main_arg0) = W (Proc.devRef .tc main_arg0) := by
  unfold opsA
  simp only [ops, List.drop_succ_cons, List.drop_zero, List.take_succ_cons, List.take_zero]
  after_results_simp <;> rfl

theorem A_main_arg1 : after opsA W (Proc.devRef .tc main_arg1) = W (Proc.devRef .tc main_arg1) := by
  unfold opsA
  simp only [ops, List.drop_succ_cons, List.drop_zero, List.take_succ_cons, List.take_zero]
  after_results_simp <;> rfl

theorem A_main_arg2 : after opsA W (Proc.devRef .tc main_arg2) = W (Proc.devRef .tc main_arg2) := by
  unfold opsA
  simp only [ops, List.drop_succ_cons, List.drop_zero, List.take_succ_cons, List.take_zero]
  after_results_simp <;> rfl

theorem A_main_arg3 : after opsA W (Proc.devRef .tc main_arg3) = W (Proc.devRef .tc main_arg3) := by
  unfold opsA
  simp only [ops, List.drop_succ_cons, List.drop_zero, List.take_succ_cons, List.take_zero]
  after_results_simp <;> rfl

theorem A_main_arg4 : after opsA W (Proc.devRef .tc main_arg4) = W (Proc.devRef .tc main_arg4) := by
  unfold opsA
  simp only [ops, List.drop_succ_cons, List.drop_zero, List.take_succ_cons, List.take_zero]
  after_results_simp <;> rfl

theorem A_main_arg5 : after opsA W (Proc.devRef .tc main_arg5) = W (Proc.devRef .tc main_arg5) := by
  unfold opsA
  simp only [ops, List.drop_succ_cons, List.drop_zero, List.take_succ_cons, List.take_zero]
  after_results_simp <;> rfl

theorem A_main_arg6 : after opsA W (Proc.devRef .tc main_arg6) = W (Proc.devRef .tc main_arg6) := by
  unfold opsA
  simp only [ops, List.drop_succ_cons, List.drop_zero, List.take_succ_cons, List.take_zero]
  after_results_simp <;> rfl

theorem A_main_arg7 : after opsA W (Proc.devRef .tc main_arg7) = W (Proc.devRef .tc main_arg7) := by
  unfold opsA
  simp only [ops, List.drop_succ_cons, List.drop_zero, List.take_succ_cons, List.take_zero]
  after_results_simp <;> rfl

theorem A_main_arg8 : after opsA W (Proc.devRef .tc main_arg8) = W (Proc.devRef .tc main_arg8) := by
  unfold opsA
  simp only [ops, List.drop_succ_cons, List.drop_zero, List.take_succ_cons, List.take_zero]
  after_results_simp <;> rfl

theorem A_main_arg9 : after opsA W (Proc.devRef .tc main_arg9) = W (Proc.devRef .tc main_arg9) := by
  unfold opsA
  simp only [ops, List.drop_succ_cons, List.drop_zero, List.take_succ_cons, List.take_zero]
  after_results_simp <;> rfl

theorem A_main_arg10 : after opsA W (Proc.devRef .tc main_arg10) = W (Proc.devRef .tc main_arg10) := by
  unfold opsA
  simp only [ops, List.drop_succ_cons, List.drop_zero, List.take_succ_cons, List.take_zero]
  after_results_simp <;> rfl

theorem A_main_arg11 : after opsA W (Proc.devRef .tc main_arg11) = W (Proc.devRef .tc main_arg11) := by
  unfold opsA
  simp only [ops, List.drop_succ_cons, List.drop_zero, List.take_succ_cons, List.take_zero]
  after_results_simp <;> rfl

/-! ## Layer 0, to the second rectifier. -/

theorem B_main_v28 : after opsB (after opsA W) (Proc.devRef .tc main_v28) = val_main_v28 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  unfold opsB
  simp only [ops, List.drop_succ_cons, List.drop_zero, List.take_succ_cons, List.take_zero]
  after_results_simp
  rw [A_main_v13, A_main_arg0, A_main_arg2, A_main_arg3, A_main_arg4, A_main_arg5, A_main_arg6]
  rfl

theorem B_main_v1 : after opsB (after opsA W) (Proc.devRef .tc main_v1) = val_main_v1 (F := F) (W (Proc.devRef .tc main_arg1)) := by
  unfold opsB
  simp only [ops, List.drop_succ_cons, List.drop_zero, List.take_succ_cons, List.take_zero]
  after_results_simp <;> exact A_main_v1 W

theorem B_main_v3 : after opsB (after opsA W) (Proc.devRef .tc main_v3) = val_main_v3 (F := F) (W (Proc.devRef .tc main_arg1)) := by
  unfold opsB
  simp only [ops, List.drop_succ_cons, List.drop_zero, List.take_succ_cons, List.take_zero]
  after_results_simp <;> exact A_main_v3 W

theorem B_main_arg7 : after opsB (after opsA W) (Proc.devRef .tc main_arg7) = W (Proc.devRef .tc main_arg7) := by
  unfold opsB
  simp only [ops, List.drop_succ_cons, List.drop_zero, List.take_succ_cons, List.take_zero]
  after_results_simp <;> exact A_main_arg7 W

theorem B_main_arg8 : after opsB (after opsA W) (Proc.devRef .tc main_arg8) = W (Proc.devRef .tc main_arg8) := by
  unfold opsB
  simp only [ops, List.drop_succ_cons, List.drop_zero, List.take_succ_cons, List.take_zero]
  after_results_simp <;> exact A_main_arg8 W

theorem B_main_arg9 : after opsB (after opsA W) (Proc.devRef .tc main_arg9) = W (Proc.devRef .tc main_arg9) := by
  unfold opsB
  simp only [ops, List.drop_succ_cons, List.drop_zero, List.take_succ_cons, List.take_zero]
  after_results_simp <;> exact A_main_arg9 W

theorem B_main_arg10 : after opsB (after opsA W) (Proc.devRef .tc main_arg10) = W (Proc.devRef .tc main_arg10) := by
  unfold opsB
  simp only [ops, List.drop_succ_cons, List.drop_zero, List.take_succ_cons, List.take_zero]
  after_results_simp <;> exact A_main_arg10 W

theorem B_main_arg11 : after opsB (after opsA W) (Proc.devRef .tc main_arg11) = W (Proc.devRef .tc main_arg11) := by
  unfold opsB
  simp only [ops, List.drop_succ_cons, List.drop_zero, List.take_succ_cons, List.take_zero]
  after_results_simp <;> exact A_main_arg11 W

/-! ## The second neighbour sum, of layer 0's output. -/

theorem C_main_v38 : after opsC (after opsB (after opsA W)) (Proc.devRef .tc main_v38) = val_main_v38 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  unfold opsC
  simp only [ops, List.drop_succ_cons, List.drop_zero, List.take_succ_cons, List.take_zero]
  after_results_simp
  rw [B_main_v28, B_main_v1, B_main_v3]
  rfl

theorem C_main_v28 : after opsC (after opsB (after opsA W)) (Proc.devRef .tc main_v28) = val_main_v28 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  unfold opsC
  simp only [ops, List.drop_succ_cons, List.drop_zero, List.take_succ_cons, List.take_zero]
  after_results_simp <;> exact B_main_v28 W

theorem C_main_arg7 : after opsC (after opsB (after opsA W)) (Proc.devRef .tc main_arg7) = W (Proc.devRef .tc main_arg7) := by
  unfold opsC
  simp only [ops, List.drop_succ_cons, List.drop_zero, List.take_succ_cons, List.take_zero]
  after_results_simp <;> exact B_main_arg7 W

theorem C_main_arg8 : after opsC (after opsB (after opsA W)) (Proc.devRef .tc main_arg8) = W (Proc.devRef .tc main_arg8) := by
  unfold opsC
  simp only [ops, List.drop_succ_cons, List.drop_zero, List.take_succ_cons, List.take_zero]
  after_results_simp <;> exact B_main_arg8 W

theorem C_main_arg9 : after opsC (after opsB (after opsA W)) (Proc.devRef .tc main_arg9) = W (Proc.devRef .tc main_arg9) := by
  unfold opsC
  simp only [ops, List.drop_succ_cons, List.drop_zero, List.take_succ_cons, List.take_zero]
  after_results_simp <;> exact B_main_arg9 W

theorem C_main_arg10 : after opsC (after opsB (after opsA W)) (Proc.devRef .tc main_arg10) = W (Proc.devRef .tc main_arg10) := by
  unfold opsC
  simp only [ops, List.drop_succ_cons, List.drop_zero, List.take_succ_cons, List.take_zero]
  after_results_simp <;> exact B_main_arg10 W

theorem C_main_arg11 : after opsC (after opsB (after opsA W)) (Proc.devRef .tc main_arg11) = W (Proc.devRef .tc main_arg11) := by
  unfold opsC
  simp only [ops, List.drop_succ_cons, List.drop_zero, List.take_succ_cons, List.take_zero]
  after_results_simp <;> exact B_main_arg11 W

/-! ## Layer 1, to the logits. -/

theorem D_main_v51 : after opsD (after opsC (after opsB (after opsA W))) (Proc.devRef .tc main_v51) = val_main_v51 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) := by
  unfold opsD
  simp only [ops, List.drop_succ_cons, List.drop_zero, List.take_succ_cons, List.take_zero]
  after_results_simp
  rw [C_main_v28, C_main_v38, C_main_arg7, C_main_arg8, C_main_arg9, C_main_arg10, C_main_arg11]
  rfl

/-! ## The log-softmax: the logits' row maxima. -/

/-! The log-softmax is a module-local function: its operations reach their buffers through typed references, which carry
    contents along an equation between the buffer's type and the value's that holds by computation. Each such transport
    is the identity. They are removed one at a time where they stand, so that two operands are compared as written and a
    reduction over the whole 50000 × 128 array is never opened. -/
theorem toBuf_main_call4_cst (v : (⟨S_, .f32⟩ : BufTy).Contents (Elt F)) : (TRef.of (sig := sig) (T := ⟨S_, .f32⟩) main_call4_cst).toBuf (Val := Elt F) v = v := rfl
theorem ofBuf_main_call4_cst (v : (⟨S_, .f32⟩ : BufTy).Contents (Elt F)) : (TRef.of (sig := sig) (T := ⟨S_, .f32⟩) main_call4_cst).ofBuf (Val := Elt F) v = v := rfl
theorem toBuf_main_v51 (v : (⟨S50000x128, .f32⟩ : BufTy).Contents (Elt F)) : (TRef.of (sig := sig) (T := ⟨S50000x128, .f32⟩) main_v51).toBuf (Val := Elt F) v = v := rfl
theorem ofBuf_main_v51 (v : (⟨S50000x128, .f32⟩ : BufTy).Contents (Elt F)) : (TRef.of (sig := sig) (T := ⟨S50000x128, .f32⟩) main_v51).ofBuf (Val := Elt F) v = v := rfl
theorem toBuf_main_call4_v0 (v : (⟨S50000, .f32⟩ : BufTy).Contents (Elt F)) : (TRef.of (sig := sig) (T := ⟨S50000, .f32⟩) main_call4_v0).toBuf (Val := Elt F) v = v := rfl
theorem ofBuf_main_call4_v0 (v : (⟨S50000, .f32⟩ : BufTy).Contents (Elt F)) : (TRef.of (sig := sig) (T := ⟨S50000, .f32⟩) main_call4_v0).ofBuf (Val := Elt F) v = v := rfl
theorem toBuf_main_call4_cst_0 (v : (⟨S_, .f32⟩ : BufTy).Contents (Elt F)) : (TRef.of (sig := sig) (T := ⟨S_, .f32⟩) main_call4_cst_0).toBuf (Val := Elt F) v = v := rfl
theorem ofBuf_main_call4_cst_0 (v : (⟨S_, .f32⟩ : BufTy).Contents (Elt F)) : (TRef.of (sig := sig) (T := ⟨S_, .f32⟩) main_call4_cst_0).ofBuf (Val := Elt F) v = v := rfl
theorem toBuf_main_call4_v1 (v : (⟨S50000, .f32⟩ : BufTy).Contents (Elt F)) : (TRef.of (sig := sig) (T := ⟨S50000, .f32⟩) main_call4_v1).toBuf (Val := Elt F) v = v := rfl
theorem ofBuf_main_call4_v1 (v : (⟨S50000, .f32⟩ : BufTy).Contents (Elt F)) : (TRef.of (sig := sig) (T := ⟨S50000, .f32⟩) main_call4_v1).ofBuf (Val := Elt F) v = v := rfl
theorem toBuf_main_call4_v2 (v : (⟨S50000, .f32⟩ : BufTy).Contents (Elt F)) : (TRef.of (sig := sig) (T := ⟨S50000, .f32⟩) main_call4_v2).toBuf (Val := Elt F) v = v := rfl
theorem ofBuf_main_call4_v2 (v : (⟨S50000, .f32⟩ : BufTy).Contents (Elt F)) : (TRef.of (sig := sig) (T := ⟨S50000, .f32⟩) main_call4_v2).ofBuf (Val := Elt F) v = v := rfl
theorem toBuf_main_call4_v3 (v : (⟨S50000x1, .f32⟩ : BufTy).Contents (Elt F)) : (TRef.of (sig := sig) (T := ⟨S50000x1, .f32⟩) main_call4_v3).toBuf (Val := Elt F) v = v := rfl
theorem ofBuf_main_call4_v3 (v : (⟨S50000x1, .f32⟩ : BufTy).Contents (Elt F)) : (TRef.of (sig := sig) (T := ⟨S50000x1, .f32⟩) main_call4_v3).ofBuf (Val := Elt F) v = v := rfl
theorem toBuf_main_call4_v4 (v : (⟨S50000x128, .f32⟩ : BufTy).Contents (Elt F)) : (TRef.of (sig := sig) (T := ⟨S50000x128, .f32⟩) main_call4_v4).toBuf (Val := Elt F) v = v := rfl
theorem ofBuf_main_call4_v4 (v : (⟨S50000x128, .f32⟩ : BufTy).Contents (Elt F)) : (TRef.of (sig := sig) (T := ⟨S50000x128, .f32⟩) main_call4_v4).ofBuf (Val := Elt F) v = v := rfl
theorem toBuf_main_call4_v5 (v : (⟨S50000x128, .f32⟩ : BufTy).Contents (Elt F)) : (TRef.of (sig := sig) (T := ⟨S50000x128, .f32⟩) main_call4_v5).toBuf (Val := Elt F) v = v := rfl
theorem ofBuf_main_call4_v5 (v : (⟨S50000x128, .f32⟩ : BufTy).Contents (Elt F)) : (TRef.of (sig := sig) (T := ⟨S50000x128, .f32⟩) main_call4_v5).ofBuf (Val := Elt F) v = v := rfl
theorem toBuf_main_call4_v6 (v : (⟨S50000x128, .f32⟩ : BufTy).Contents (Elt F)) : (TRef.of (sig := sig) (T := ⟨S50000x128, .f32⟩) main_call4_v6).toBuf (Val := Elt F) v = v := rfl
theorem ofBuf_main_call4_v6 (v : (⟨S50000x128, .f32⟩ : BufTy).Contents (Elt F)) : (TRef.of (sig := sig) (T := ⟨S50000x128, .f32⟩) main_call4_v6).ofBuf (Val := Elt F) v = v := rfl
theorem toBuf_main_call4_cst_1 (v : (⟨S_, .f32⟩ : BufTy).Contents (Elt F)) : (TRef.of (sig := sig) (T := ⟨S_, .f32⟩) main_call4_cst_1).toBuf (Val := Elt F) v = v := rfl
theorem ofBuf_main_call4_cst_1 (v : (⟨S_, .f32⟩ : BufTy).Contents (Elt F)) : (TRef.of (sig := sig) (T := ⟨S_, .f32⟩) main_call4_cst_1).ofBuf (Val := Elt F) v = v := rfl
theorem toBuf_main_call4_v7 (v : (⟨S50000, .f32⟩ : BufTy).Contents (Elt F)) : (TRef.of (sig := sig) (T := ⟨S50000, .f32⟩) main_call4_v7).toBuf (Val := Elt F) v = v := rfl
theorem ofBuf_main_call4_v7 (v : (⟨S50000, .f32⟩ : BufTy).Contents (Elt F)) : (TRef.of (sig := sig) (T := ⟨S50000, .f32⟩) main_call4_v7).ofBuf (Val := Elt F) v = v := rfl
theorem toBuf_main_call4_v8 (v : (⟨S50000x1, .f32⟩ : BufTy).Contents (Elt F)) : (TRef.of (sig := sig) (T := ⟨S50000x1, .f32⟩) main_call4_v8).toBuf (Val := Elt F) v = v := rfl
theorem ofBuf_main_call4_v8 (v : (⟨S50000x1, .f32⟩ : BufTy).Contents (Elt F)) : (TRef.of (sig := sig) (T := ⟨S50000x1, .f32⟩) main_call4_v8).ofBuf (Val := Elt F) v = v := rfl
theorem toBuf_main_call4_v9 (v : (⟨S50000x1, .f32⟩ : BufTy).Contents (Elt F)) : (TRef.of (sig := sig) (T := ⟨S50000x1, .f32⟩) main_call4_v9).toBuf (Val := Elt F) v = v := rfl
theorem ofBuf_main_call4_v9 (v : (⟨S50000x1, .f32⟩ : BufTy).Contents (Elt F)) : (TRef.of (sig := sig) (T := ⟨S50000x1, .f32⟩) main_call4_v9).ofBuf (Val := Elt F) v = v := rfl
theorem toBuf_main_call4_v10 (v : (⟨S50000x128, .f32⟩ : BufTy).Contents (Elt F)) : (TRef.of (sig := sig) (T := ⟨S50000x128, .f32⟩) main_call4_v10).toBuf (Val := Elt F) v = v := rfl
theorem ofBuf_main_call4_v10 (v : (⟨S50000x128, .f32⟩ : BufTy).Contents (Elt F)) : (TRef.of (sig := sig) (T := ⟨S50000x128, .f32⟩) main_call4_v10).ofBuf (Val := Elt F) v = v := rfl
theorem toBuf_main_v52 (v : (⟨S50000x128, .f32⟩ : BufTy).Contents (Elt F)) : (TRef.of (sig := sig) (T := ⟨S50000x128, .f32⟩) main_v52).toBuf (Val := Elt F) v = v := rfl
theorem ofBuf_main_v52 (v : (⟨S50000x128, .f32⟩ : BufTy).Contents (Elt F)) : (TRef.of (sig := sig) (T := ⟨S50000x128, .f32⟩) main_v52).ofBuf (Val := Elt F) v = v := rfl

theorem E_main_call4_v2 : after opsE (after opsD (after opsC (after opsB (after opsA W)))) (Proc.devRef .tc main_call4_v2) = val_main_call4_v2 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) := by
  unfold opsE
  simp only [ops, List.drop_succ_cons, List.drop_zero, List.take_succ_cons, List.take_zero]
  after_results_simp
  repeat (first | rw [toBuf_main_call4_cst] | rw [ofBuf_main_call4_cst] | rw [toBuf_main_v51] | rw [ofBuf_main_v51] | rw [toBuf_main_call4_v0] | rw [ofBuf_main_call4_v0] | rw [toBuf_main_call4_cst_0] | rw [ofBuf_main_call4_cst_0] | rw [toBuf_main_call4_v1] | rw [ofBuf_main_call4_v1] | rw [toBuf_main_call4_v2] | rw [ofBuf_main_call4_v2] | rw [toBuf_main_call4_v3] | rw [ofBuf_main_call4_v3] | rw [toBuf_main_call4_v4] | rw [ofBuf_main_call4_v4] | rw [toBuf_main_call4_v5] | rw [ofBuf_main_call4_v5] | rw [toBuf_main_call4_v6] | rw [ofBuf_main_call4_v6] | rw [toBuf_main_call4_cst_1] | rw [ofBuf_main_call4_cst_1] | rw [toBuf_main_call4_v7] | rw [ofBuf_main_call4_v7] | rw [toBuf_main_call4_v8] | rw [ofBuf_main_call4_v8] | rw [toBuf_main_call4_v9] | rw [ofBuf_main_call4_v9] | rw [toBuf_main_call4_v10] | rw [ofBuf_main_call4_v10] | rw [toBuf_main_v52] | rw [ofBuf_main_v52])
  rw [D_main_v51]
  unfold val_main_call4_v2 val_main_call4_v1 val_main_call4_v0 val_main_call4_cst_0 val_main_call4_cst
  rfl

theorem E_main_v51 : after opsE (after opsD (after opsC (after opsB (after opsA W)))) (Proc.devRef .tc main_v51) = val_main_v51 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) := by
  unfold opsE
  simp only [ops, List.drop_succ_cons, List.drop_zero, List.take_succ_cons, List.take_zero]
  after_results_simp <;> exact D_main_v51 W

/-! ## The log-softmax: the logits shifted by their row maxima. -/

theorem G_main_call4_v5 : after opsG (after opsE (after opsD (after opsC (after opsB (after opsA W))))) (Proc.devRef .tc main_call4_v5) = val_main_call4_v5 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) := by
  unfold opsG
  simp only [ops, List.drop_succ_cons, List.drop_zero, List.take_succ_cons, List.take_zero]
  after_results_simp
  repeat (first | rw [toBuf_main_call4_cst] | rw [ofBuf_main_call4_cst] | rw [toBuf_main_v51] | rw [ofBuf_main_v51] | rw [toBuf_main_call4_v0] | rw [ofBuf_main_call4_v0] | rw [toBuf_main_call4_cst_0] | rw [ofBuf_main_call4_cst_0] | rw [toBuf_main_call4_v1] | rw [ofBuf_main_call4_v1] | rw [toBuf_main_call4_v2] | rw [ofBuf_main_call4_v2] | rw [toBuf_main_call4_v3] | rw [ofBuf_main_call4_v3] | rw [toBuf_main_call4_v4] | rw [ofBuf_main_call4_v4] | rw [toBuf_main_call4_v5] | rw [ofBuf_main_call4_v5] | rw [toBuf_main_call4_v6] | rw [ofBuf_main_call4_v6] | rw [toBuf_main_call4_cst_1] | rw [ofBuf_main_call4_cst_1] | rw [toBuf_main_call4_v7] | rw [ofBuf_main_call4_v7] | rw [toBuf_main_call4_v8] | rw [ofBuf_main_call4_v8] | rw [toBuf_main_call4_v9] | rw [ofBuf_main_call4_v9] | rw [toBuf_main_call4_v10] | rw [ofBuf_main_call4_v10] | rw [toBuf_main_v52] | rw [ofBuf_main_v52])
  rw [E_main_call4_v2, E_main_v51]
  unfold val_main_call4_v5 val_main_call4_v4 val_main_call4_v3
  rfl

/-! ## The log-softmax: the row sums of the exponentials. -/

theorem H_main_call4_v7 : after opsH (after opsG (after opsE (after opsD (after opsC (after opsB (after opsA W)))))) (Proc.devRef .tc main_call4_v7) = val_main_call4_v7 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) := by
  unfold opsH
  simp only [ops, List.drop_succ_cons, List.drop_zero, List.take_succ_cons, List.take_zero]
  after_results_simp
  repeat (first | rw [toBuf_main_call4_cst] | rw [ofBuf_main_call4_cst] | rw [toBuf_main_v51] | rw [ofBuf_main_v51] | rw [toBuf_main_call4_v0] | rw [ofBuf_main_call4_v0] | rw [toBuf_main_call4_cst_0] | rw [ofBuf_main_call4_cst_0] | rw [toBuf_main_call4_v1] | rw [ofBuf_main_call4_v1] | rw [toBuf_main_call4_v2] | rw [ofBuf_main_call4_v2] | rw [toBuf_main_call4_v3] | rw [ofBuf_main_call4_v3] | rw [toBuf_main_call4_v4] | rw [ofBuf_main_call4_v4] | rw [toBuf_main_call4_v5] | rw [ofBuf_main_call4_v5] | rw [toBuf_main_call4_v6] | rw [ofBuf_main_call4_v6] | rw [toBuf_main_call4_cst_1] | rw [ofBuf_main_call4_cst_1] | rw [toBuf_main_call4_v7] | rw [ofBuf_main_call4_v7] | rw [toBuf_main_call4_v8] | rw [ofBuf_main_call4_v8] | rw [toBuf_main_call4_v9] | rw [ofBuf_main_call4_v9] | rw [toBuf_main_call4_v10] | rw [ofBuf_main_call4_v10] | rw [toBuf_main_v52] | rw [ofBuf_main_v52])
  rw [G_main_call4_v5]
  unfold val_main_call4_v7 val_main_call4_v6 val_main_call4_cst_1
  rfl

theorem H_main_call4_v5 : after opsH (after opsG (after opsE (after opsD (after opsC (after opsB (after opsA W)))))) (Proc.devRef .tc main_call4_v5) = val_main_call4_v5 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) := by
  unfold opsH
  simp only [ops, List.drop_succ_cons, List.drop_zero, List.take_succ_cons, List.take_zero]
  after_results_simp <;> exact G_main_call4_v5 W

/-! ## The log-softmax: the shifted logits minus the logarithm of those sums. -/

theorem K_main_v52 : after opsK (after opsH (after opsG (after opsE (after opsD (after opsC (after opsB (after opsA W))))))) (Proc.devRef .tc main_v52) = val_main_v52 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) := by
  unfold opsK
  simp only [ops, List.drop_succ_cons, List.drop_zero, List.take_succ_cons, List.take_zero]
  after_results_simp
  repeat (first | rw [toBuf_main_call4_cst] | rw [ofBuf_main_call4_cst] | rw [toBuf_main_v51] | rw [ofBuf_main_v51] | rw [toBuf_main_call4_v0] | rw [ofBuf_main_call4_v0] | rw [toBuf_main_call4_cst_0] | rw [ofBuf_main_call4_cst_0] | rw [toBuf_main_call4_v1] | rw [ofBuf_main_call4_v1] | rw [toBuf_main_call4_v2] | rw [ofBuf_main_call4_v2] | rw [toBuf_main_call4_v3] | rw [ofBuf_main_call4_v3] | rw [toBuf_main_call4_v4] | rw [ofBuf_main_call4_v4] | rw [toBuf_main_call4_v5] | rw [ofBuf_main_call4_v5] | rw [toBuf_main_call4_v6] | rw [ofBuf_main_call4_v6] | rw [toBuf_main_call4_cst_1] | rw [ofBuf_main_call4_cst_1] | rw [toBuf_main_call4_v7] | rw [ofBuf_main_call4_v7] | rw [toBuf_main_call4_v8] | rw [ofBuf_main_call4_v8] | rw [toBuf_main_call4_v9] | rw [ofBuf_main_call4_v9] | rw [toBuf_main_call4_v10] | rw [ofBuf_main_call4_v10] | rw [toBuf_main_v52] | rw [ofBuf_main_v52])
  rw [H_main_call4_v7, H_main_call4_v5]
  unfold val_main_v52 val_main_call4_v10 val_main_call4_v9 val_main_call4_v8
  rfl

/-- What the 83 operations leave in the result buffer: the last stage function of the argument buffers' contents. -/
theorem staged : after (ops (F := F)) W (Proc.devRef .tc main_v52) = val_main_v52 (F := F) (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) := by
  rw [ops_split, after_append, after_append, after_append, after_append, after_append, after_append, after_append]
  exact K_main_v52 W

/-- THE REFERENCE'S RESULT as a function of the launch arguments. -/
theorem result_eq (m : (ℓ : Loc nD τ sig) → Buf (Elt F) ℓ) (c : Dev nD) :
    res_main_v52 m c = val_main_v52 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  unfold res_main_v52
  exact staged (launchContents m c)

end Cert.ReferenceIdeal.Stages

end
-- ==== Proof.RefLayers.lean ====
/-
  The reference, read at an entry.

  The reference computes each layer over the whole graph at once: the combined input, a product with the first
  weight matrix plus the bias stretched over the rows, the rectifier, a product with the second weight matrix plus
  its bias. Layer 0 ends with the rectifier applied twice (the layer's own and the model's), which is the rectifier
  once. Layer 1 ends with the log-softmax, whose row maximum is taken against minus infinity once more than it
  needs, which changes nothing. Read at row `a` and column `j`, each stage is the row-level function of node `a`'s
  rows; the neighbour sums stay whole arrays.
-/
import proofs.«117710_j39848706573591_2_alg».proof.Proof.RefRead
import proofs.«117710_j39848706573591_2_alg».proof.Proof.GinRows
import Idealize.ShloMosaic.PureOps.Ideal.Laws
import Idealize.ShloMosaic.Lib.ValueIdx

noncomputable section

namespace Cert.ReferenceIdeal.Layers

open Idealize.ShloMosaic Idealize.ShloMosaic.ValueIdx Cert.ReferenceIdeal Cert.ReferenceIdeal.ReadP Cert.GinRows
open Cert.ReferenceIdeal.Facts₀

/-- Two rank-2 indices with the same coordinates are equal. -/
macro "same_idx2" : tactic => `(tactic| exact funext fun d => Fin.ext (by match d with | ⟨0, _⟩ => rfl | ⟨1, _⟩ => rfl))
/-- Two rank-1 indices with the same coordinate are equal. -/
macro "same_idx1" : tactic => `(tactic| exact funext fun d => Fin.ext (by match d with | ⟨0, _⟩ => rfl))

variable (x0 : (⟨S50000x256, .f32⟩ : BufTy).Contents (Elt Ideal)) (x1 : (⟨S2x800000, .i32⟩ : BufTy).Contents (Elt Ideal)) (x2 : (⟨S_, .f32⟩ : BufTy).Contents (Elt Ideal)) (x3 : (⟨S256x256, .f32⟩ : BufTy).Contents (Elt Ideal)) (x4 : (⟨S256, .f32⟩ : BufTy).Contents (Elt Ideal)) (x5 : (⟨S256x256, .f32⟩ : BufTy).Contents (Elt Ideal)) (x6 : (⟨S256, .f32⟩ : BufTy).Contents (Elt Ideal)) (x7 : (⟨S_, .f32⟩ : BufTy).Contents (Elt Ideal)) (x8 : (⟨S256x256, .f32⟩ : BufTy).Contents (Elt Ideal)) (x9 : (⟨S256, .f32⟩ : BufTy).Contents (Elt Ideal)) (x10 : (⟨S256x128, .f32⟩ : BufTy).Contents (Elt Ideal)) (x11 : (⟨S128, .f32⟩ : BufTy).Contents (Elt Ideal))

/-! ## Layer 0 -/

theorem combined0 (a : Fin 50000) (k : Fin 256) : val_main_v17 (F := Ideal) x0 x1 x2 (ix2 a k)
    = combine (x2 ix0) (fun k => x0 (ix2 a k)) (fun k => val_main_v13 (F := Ideal) x0 x1 (ix2 a k)) k := by
  rw [val_main_v17_apply, val_main_v16_apply, val_main_v15_apply, val_main_v14_apply, val_main_cst_1_apply]
  rfl

theorem hidden0 (a : Fin 50000) (j : Fin 256) : val_main_v22 (F := Ideal) x0 x1 x2 x3 x4 (ix2 a j)
    = Cert.GinRows.hidden (fun k j => x3 (ix2 k j)) (fun j => x4 (ix1 j)) (combine (x2 ix0) (fun k => x0 (ix2 a k)) (fun k => val_main_v13 (F := Ideal) x0 x1 (ix2 a k))) j := by
  rw [val_main_v22_apply, val_main_v21_apply, val_main_v18_apply, val_main_v20_apply, val_main_v19_apply,
    val_main_call0_v0_apply, val_main_call0_cst_apply]
  unfold Cert.GinRows.hidden affine
  refine congrArg₂ max (congrArg₂ (· + ·) (Finset.sum_congr rfl fun k _ => ?_) (congrArg x4 (by same_idx1))) rfl
  rw [show lidx_main_v18 (ix2 a j) k = ix2 a k by same_idx2, show ridx_main_v18 (ix2 a j) k = ix2 k j by same_idx2, combined0]

theorem layer0_apply (a : Fin 50000) (j : Fin 256) : val_main_v28 (F := Ideal) x0 x1 x2 x3 x4 x5 x6 (ix2 a j)
    = layer0Row (x2 ix0) (fun k j => x3 (ix2 k j)) (fun j => x4 (ix1 j)) (fun k j => x5 (ix2 k j)) (fun j => x6 (ix1 j)) (fun k => x0 (ix2 a k)) (fun k => val_main_v13 (F := Ideal) x0 x1 (ix2 a k)) j := by
  rw [val_main_v28_apply, val_main_v27_apply, val_main_v26_apply, val_main_v23_apply, val_main_v25_apply, val_main_v24_apply,
    val_main_call2_v0_apply, val_main_call2_cst_apply, val_main_call1_v0_apply, val_main_call1_cst_apply]
  unfold layer0Row layerRow affine
  refine (relu_relu _ _).trans ?_
  refine congrArg₂ max (congrArg₂ (· + ·) (Finset.sum_congr rfl fun k _ => ?_) (congrArg x6 (by same_idx1))) rfl
  rw [show lidx_main_v23 (ix2 a j) k = ix2 a k by same_idx2, show ridx_main_v23 (ix2 a j) k = ix2 k j by same_idx2, hidden0]

/-- LAYER 0 of the reference over the whole graph. -/
theorem layer0_eq : val_main_v28 (F := Ideal) x0 x1 x2 x3 x4 x5 x6
    = layer0 (x2 ix0) (fun k j => x3 (ix2 k j)) (fun j => x4 (ix1 j)) (fun k j => x5 (ix2 k j)) (fun j => x6 (ix1 j)) x0 (val_main_v13 (F := Ideal) x0 x1) := by
  funext i
  obtain ⟨a, j, rfl⟩ : ∃ (a : Fin 50000) (j : Fin 256), i = ix2 a j := ⟨i 0, i 1, eq_ix2 i⟩
  exact layer0_apply x0 x1 x2 x3 x4 x5 x6 a j

/-! ## Layer 1 -/

theorem combined1 (a : Fin 50000) (k : Fin 256) : val_main_v42 (F := Ideal) x0 x1 x2 x3 x4 x5 x6 x7 (ix2 a k)
    = combine (x7 ix0) (fun k => val_main_v28 (F := Ideal) x0 x1 x2 x3 x4 x5 x6 (ix2 a k)) (fun k => val_main_v38 (F := Ideal) x0 x1 x2 x3 x4 x5 x6 (ix2 a k)) k := by
  rw [val_main_v42_apply, val_main_v41_apply, val_main_v40_apply, val_main_v39_apply, val_main_cst_5_apply]
  rfl

theorem hidden1 (a : Fin 50000) (j : Fin 256) : val_main_v47 (F := Ideal) x0 x1 x2 x3 x4 x5 x6 x7 x8 x9 (ix2 a j)
    = Cert.GinRows.hidden (fun k j => x8 (ix2 k j)) (fun j => x9 (ix1 j)) (combine (x7 ix0) (fun k => val_main_v28 (F := Ideal) x0 x1 x2 x3 x4 x5 x6 (ix2 a k)) (fun k => val_main_v38 (F := Ideal) x0 x1 x2 x3 x4 x5 x6 (ix2 a k))) j := by
  rw [val_main_v47_apply, val_main_v46_apply, val_main_v43_apply, val_main_v45_apply, val_main_v44_apply,
    val_main_call3_v0_apply, val_main_call3_cst_apply]
  unfold Cert.GinRows.hidden affine
  refine congrArg₂ max (congrArg₂ (· + ·) (Finset.sum_congr rfl fun k _ => ?_) (congrArg x9 (by same_idx1))) rfl
  rw [show lidx_main_v43 (ix2 a j) k = ix2 a k by same_idx2, show ridx_main_v43 (ix2 a j) k = ix2 k j by same_idx2, combined1]

theorem logits_apply (a : Fin 50000) (j : Fin 128) : val_main_v51 (F := Ideal) x0 x1 x2 x3 x4 x5 x6 x7 x8 x9 x10 x11 (ix2 a j)
    = layerRow (x7 ix0) (fun k j => x8 (ix2 k j)) (fun j => x9 (ix1 j)) (fun k j => x10 (ix2 k j)) (fun j => x11 (ix1 j)) (fun k => val_main_v28 (F := Ideal) x0 x1 x2 x3 x4 x5 x6 (ix2 a k)) (fun k => val_main_v38 (F := Ideal) x0 x1 x2 x3 x4 x5 x6 (ix2 a k)) j := by
  rw [val_main_v51_apply, val_main_v48_apply, val_main_v50_apply, val_main_v49_apply]
  unfold layerRow affine
  refine congrArg₂ (· + ·) (Finset.sum_congr rfl fun k _ => ?_) (congrArg x11 (by same_idx1))
  rw [show lidx_main_v48 (ix2 a j) k = ix2 a k by same_idx2, show ridx_main_v48 (ix2 a j) k = ix2 k j by same_idx2, hidden1]

/-- The row maximum the reference's log-softmax subtracts: the fold of the maximum over the row, from minus infinity,
    then once more against minus infinity. -/
theorem rowmax_apply (a : Fin 50000) : val_main_call4_v2 (F := Ideal) x0 x1 x2 x3 x4 x5 x6 x7 x8 x9 x10 x11 (ix1 a)
    = rowMax (fun k => val_main_v51 (F := Ideal) x0 x1 x2 x3 x4 x5 x6 x7 x8 x9 x10 x11 (ix2 a k)) := by
  rw [val_main_call4_v2_apply, val_main_call4_v1_apply, val_main_call4_cst_0_apply]
  refine (congrArg (max negInf) ?_).trans (max_negInf_left _)
  unfold val_main_call4_v0
  generalize val_main_v51 (F := Ideal) x0 x1 x2 x3 x4 x5 x6 x7 x8 x9 x10 x11 = y
  have hR : S50000x128.Reduces [1] S50000 := by decide
  refine (Host.reduce_eq_fold_single (α := EReal) (s := S50000x128) (t := S50000) (a := 1) (u := S_)
    (FloatOps.maximumf (F := Ideal) (φ := .f32)) y (val_main_call4_cst (F := Ideal)) reducesTo_S50000x128_S50000_d1 hR h_S_ (ix1 a)).trans ?_
  unfold rowMax
  refine congrArg (fun f => (Finset.univ : Finset (Fin 128)).fold max negInf f) (funext fun k => congrArg y ?_)
  funext d
  match d with
  | ⟨0, _⟩ => rfl
  | ⟨1, _⟩ => rfl

theorem shifted_apply (a : Fin 50000) (j : Fin 128) : val_main_call4_v5 (F := Ideal) x0 x1 x2 x3 x4 x5 x6 x7 x8 x9 x10 x11 (ix2 a j)
    = val_main_v51 (F := Ideal) x0 x1 x2 x3 x4 x5 x6 x7 x8 x9 x10 x11 (ix2 a j) - rowMax (fun k => val_main_v51 (F := Ideal) x0 x1 x2 x3 x4 x5 x6 x7 x8 x9 x10 x11 (ix2 a k)) := by
  rw [val_main_call4_v5_apply, val_main_call4_v4_apply, val_main_call4_v3_apply,
    show idx_main_call4_v3 (idx_main_call4_v4 (ix2 a j)) = ix1 a by same_idx1, rowmax_apply]
  rfl

theorem out_apply (a : Fin 50000) (j : Fin 128) : val_main_v52 (F := Ideal) x0 x1 x2 x3 x4 x5 x6 x7 x8 x9 x10 x11 (ix2 a j)
    = logSoftmaxRow (layerRow (x7 ix0) (fun k j => x8 (ix2 k j)) (fun j => x9 (ix1 j)) (fun k j => x10 (ix2 k j)) (fun j => x11 (ix1 j)) (fun k => val_main_v28 (F := Ideal) x0 x1 x2 x3 x4 x5 x6 (ix2 a k)) (fun k => val_main_v38 (F := Ideal) x0 x1 x2 x3 x4 x5 x6 (ix2 a k))) j := by
  rw [val_main_v52_apply, val_main_call4_v10_apply, val_main_call4_v9_apply, val_main_call4_v8_apply, val_main_call4_v7_apply,
    val_main_call4_cst_1_apply]
  unfold logSoftmaxRow
  have hz : ∀ k : Fin 128, val_main_call4_v5 (F := Ideal) x0 x1 x2 x3 x4 x5 x6 x7 x8 x9 x10 x11 (ix2 a k)
      = layerRow (x7 ix0) (fun k j => x8 (ix2 k j)) (fun j => x9 (ix1 j)) (fun k j => x10 (ix2 k j)) (fun j => x11 (ix1 j)) (fun k => val_main_v28 (F := Ideal) x0 x1 x2 x3 x4 x5 x6 (ix2 a k)) (fun k => val_main_v38 (F := Ideal) x0 x1 x2 x3 x4 x5 x6 (ix2 a k)) k
        - rowMax (layerRow (x7 ix0) (fun k j => x8 (ix2 k j)) (fun j => x9 (ix1 j)) (fun k j => x10 (ix2 k j)) (fun j => x11 (ix1 j)) (fun k => val_main_v28 (F := Ideal) x0 x1 x2 x3 x4 x5 x6 (ix2 a k)) (fun k => val_main_v38 (F := Ideal) x0 x1 x2 x3 x4 x5 x6 (ix2 a k))) := fun k => by
    rw [shifted_apply]; simp only [logits_apply]
  show val_main_call4_v5 (F := Ideal) x0 x1 x2 x3 x4 x5 x6 x7 x8 x9 x10 x11 (ix2 a j) - Ideal.log (Ideal.ofBits .f32 0x00000000#32 + ∑ k : Fin 128, _) = _
  rw [Ideal.ofBits_zero_f32, zero_add, hz j]
  refine congrArg (fun s => _ - Ideal.log s) (Finset.sum_congr rfl fun k _ => ?_)
  rw [val_main_call4_v6_apply, show idx_main_call4_v7 (idx_main_call4_v8 (idx_main_call4_v10 (ix2 a j))) k = ix2 a k by same_idx2, hz k]
  rfl

/-- LAYER 1 of the reference over the whole graph: the result. -/
theorem layer1_eq : val_main_v52 (F := Ideal) x0 x1 x2 x3 x4 x5 x6 x7 x8 x9 x10 x11
    = layer1 (x7 ix0) (fun k j => x8 (ix2 k j)) (fun j => x9 (ix1 j)) (fun k j => x10 (ix2 k j)) (fun j => x11 (ix1 j)) (val_main_v28 (F := Ideal) x0 x1 x2 x3 x4 x5 x6) (val_main_v38 (F := Ideal) x0 x1 x2 x3 x4 x5 x6) := by
  funext i
  obtain ⟨a, j, rfl⟩ : ∃ (a : Fin 50000) (j : Fin 128), i = ix2 a j := ⟨i 0, i 1, eq_ix2 i⟩
  exact out_apply x0 x1 x2 x3 x4 x5 x6 x7 x8 x9 x10 x11 a j

end Cert.ReferenceIdeal.Layers

end
-- ==== Proof.lean ====
/-
  A two-layer graph isomorphism network with a log-softmax head: a tiled kernel against its whole-graph reference,
  equal on the extended reals.

  Each layer adds up, for every node, the feature rows of its in-neighbours (a gather along the edges' source row and
  a scatter-add along their destination row), forms `(1 + eps) · x + agg`, and applies a two-layer perceptron. The
  kernel runs each layer's perceptron in 25 tiles of 2000 nodes, with the matrix operands narrowed to a 16-bit format
  and layer 0's output stored in that format; the reference runs each layer over the whole graph in one format.
  On the extended reals a change of format is the identity, a product into a zero accumulator is the plain sum over
  the contracted coordinate, and a layer's output row depends on the node's own two rows only, so a tile of the
  kernel's output is the reference's function restricted to the tile and the 25 tiles make up the whole array.
  Two differences remain and both are identities on every extended real: the reference applies the rectifier twice
  between the layers, and its log-softmax takes the row maximum once more against minus infinity. No step uses that
  the inputs are finite: sums are only regrouped by the index they run over, never distributed over.

  The neighbour sums are the same operations of the same arrays in both programs and are never opened.
  `preserves` is trivial: the idealization rewrote no operation of the kernel.
-/
import proofs.«117710_j39848706573591_2_alg».proof.Defs
import proofs.«117710_j39848706573591_2_alg».proof.Proof.Gen.Kernel
import proofs.«117710_j39848706573591_2_alg».proof.Proof.Gen.Kernel.Skeleton
import proofs.«117710_j39848706573591_2_alg».proof.Proof.Gen.Kernel.Launch
import proofs.«117710_j39848706573591_2_alg».proof.Proof.Gen.Kernel.Points
import proofs.«117710_j39848706573591_2_alg».proof.Proof.Gen.Kernel.Frame
import proofs.«117710_j39848706573591_2_alg».proof.Proof.Gen.KernelIdeal
import proofs.«117710_j39848706573591_2_alg».proof.Proof.Gen.KernelIdeal.Skeleton
import proofs.«117710_j39848706573591_2_alg».proof.Proof.Gen.KernelIdeal.Launch
import proofs.«117710_j39848706573591_2_alg».proof.Proof.Gen.KernelIdeal.Points
import proofs.«117710_j39848706573591_2_alg».proof.Proof.Gen.KernelIdeal.Frame
import proofs.«117710_j39848706573591_2_alg».proof.Proof.Gen.ReferenceIdeal
import proofs.«117710_j39848706573591_2_alg».proof.Proof.Gen.Pre_finite_inputs
import proofs.«117710_j39848706573591_2_alg».proof.Proof.KernelRun
import proofs.«117710_j39848706573591_2_alg».proof.Proof.Operands
import proofs.«117710_j39848706573591_2_alg».proof.Proof.RefRun
import proofs.«117710_j39848706573591_2_alg».proof.Proof.RefRead
import proofs.«117710_j39848706573591_2_alg».proof.Proof.RefStages
import proofs.«117710_j39848706573591_2_alg».proof.Proof.RefLayers
import Idealize.ShloMosaic.Adequacy
import Idealize.ShloMosaic.Init

noncomputable section

namespace Cert.Proof

open Idealize.ShloMosaic Idealize.ShloMosaic.ValueIdx Idealize.SL.Sem Cert.GinRows

/-! ## The two programs' neighbour sums are one function -/

/-- Layer 0's neighbour sum in the reference is the kernel's: the same gather and scatter-add of the same arrays. -/
theorem agg0_eq (x0 : (⟨Cert.ReferenceIdeal.S50000x256, .f32⟩ : BufTy).Contents (Elt Ideal))
    (x1 : (⟨Cert.ReferenceIdeal.S2x800000, .i32⟩ : BufTy).Contents (Elt Ideal)) :
    Cert.ReferenceIdeal.ReadP.val_main_v13 (F := Ideal) x0 x1 = Cert.KernelIdeal.Operands.neighbourSum x0 x1 := rfl

/-- Layer 1's neighbour sum in the reference is the kernel's, of whatever layer 0 left: the kernel gathers the rows
    in the narrow format and widens them, which is the identity here. -/
theorem agg1_eq (h : (⟨Cert.ReferenceIdeal.S50000x256, .f32⟩ : BufTy).Contents (Elt Ideal))
    (x1 : (⟨Cert.ReferenceIdeal.S2x800000, .i32⟩ : BufTy).Contents (Elt Ideal)) :
    Host.scatterAdd Cert.ReferenceIdeal.scatter_S50000x256_S800000x1_S800000x256_1_0_0_1
        (Cert.ReferenceIdeal.ReadP.val_main_v36 (F := Ideal)) (Cert.ReferenceIdeal.ReadP.val_main_v37 (F := Ideal) x1)
        (Host.gather Cert.ReferenceIdeal.gather_S50000x256_S800000x1_S800000x256_1_0_n_n_0_1_1256 h
          (Cert.ReferenceIdeal.ReadP.val_main_v34 (F := Ideal) x1))
      = Cert.KernelIdeal.Operands.neighbourSum h x1 := rfl

/-! ## The claims -/

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

theorem preserves : Cert.preserves_Kernel_KernelIdeal := trivial

/-- Both programs end with the result at layer 1 (with its log-softmax) of layer 0's output and its neighbour sum, as
    functions of the launch arguments; the arguments agree. -/
theorem algebraic : Cert.algebraic_KernelIdeal_ReferenceIdeal := by
  intro m ρ m' ρ' _ hagree
  refine ⟨fun c => layer1 ((m ((c.tc : Thread Cert.KernelIdeal.nD Cert.KernelIdeal.τ).loc Cert.KernelIdeal.main_arg7)) ix0) (fun k j => (m ((c.tc : Thread Cert.KernelIdeal.nD Cert.KernelIdeal.τ).loc Cert.KernelIdeal.main_arg8)) (ix2 k j)) (fun j => (m ((c.tc : Thread Cert.KernelIdeal.nD Cert.KernelIdeal.τ).loc Cert.KernelIdeal.main_arg9)) (ix1 j))
      (fun k j => (m ((c.tc : Thread Cert.KernelIdeal.nD Cert.KernelIdeal.τ).loc Cert.KernelIdeal.main_arg10)) (ix2 k j)) (fun j => (m ((c.tc : Thread Cert.KernelIdeal.nD Cert.KernelIdeal.τ).loc Cert.KernelIdeal.main_arg11)) (ix1 j))
      (Cert.KernelIdeal.Operands.hiddenOf m c)
      (Cert.KernelIdeal.Operands.neighbourSum (Cert.KernelIdeal.Operands.hiddenOf m c) (m ((c.tc : Thread Cert.KernelIdeal.nD Cert.KernelIdeal.τ).loc Cert.KernelIdeal.main_arg1))), ?_, ?_⟩
  · exact (θ_run Cert.KernelIdeal.defs _ _).mono
      (fun r h c => ⟨(h c).1.trans (Cert.KernelIdeal.Operands.result_eq m ρ c), (h c).2⟩)
      (Cert.KernelIdeal.RunValue.run (F := Ideal) m ρ)
  · refine (θ_run Cert.ReferenceIdeal.defs _ _).mono (fun r h c => ⟨(h c).1.trans ?_, (h c).2⟩)
      (Cert.ReferenceIdeal.ValueP.run (F := Ideal) m' ρ')
    obtain ⟨h0, h1, h2, h3, h4, h5, h6, h7, h8, h9, h10, h11⟩ := hagree c
    rw [Cert.ReferenceIdeal.Stages.result_eq, h0, h1, h2, h3, h4, h5, h6, h7, h8, h9, h10, h11,
      Cert.ReferenceIdeal.Layers.layer1_eq, Cert.ReferenceIdeal.Layers.layer0_eq]
    beta_reduce
    unfold Cert.KernelIdeal.Operands.hiddenOf
    rw [agg0_eq]
    refine congrArg (layer1 _ _ _ _ _ _) ?_
    unfold Cert.ReferenceIdeal.ReadP.val_main_v38 Cert.ReferenceIdeal.ReadP.val_main_v35
    rw [Cert.ReferenceIdeal.Layers.layer0_eq, agg0_eq]
    exact agg1_eq _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
